-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000 : Shape := ⟨1, ![500000]⟩
abbrev S1000000 : Shape := ⟨1, ![1000000]⟩
abbrev S1500000 : Shape := ⟨1, ![1500000]⟩
abbrev S128x128 : Shape := ⟨2, ![128, 128]⟩
abbrev S256x128 : Shape := ⟨2, ![256, 128]⟩
abbrev S384x128 : Shape := ⟨2, ![384, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg4 : IVec S500000 32) (main_arg6 : IVec S500000 32) (main_v28 : IVec S_ 1) (main_v33 : IVec S500000 1) : IVec S_ 1 :=
  let main_c_12 : IVec S_ 1 := constantI S_ 1 1#1
  let main_v34 : IVec S_ 1 := (fun x v => Host.reduce IntOp.andi x v reducesTo_S500000_S_d0 h_S_) main_v33 main_c_12
  let main_v35 : IVec S_ 1 := andi main_v28 main_v34
  let main_c_13 : IVec S_ 32 := constantI S_ 32 0#32
  let main_v36 : IVec S500000 32 := broadcastInDim S500000 ![] bcast_S_S500000 main_c_13
  let main_v37 : IVec S500000 1 := cmpi .sge main_arg4 main_v36
  let main_c_14 : IVec S_ 32 := constantI S_ 32 100000#32
  let main_v38 : IVec S500000 32 := broadcastInDim S500000 ![] bcast_S_S500000 main_c_14
  let main_v39 : IVec S500000 1 := cmpi .slt main_arg4 main_v38
  let main_v40 : IVec S500000 1 := andi main_v37 main_v39
  let main_c_15 : IVec S_ 1 := constantI S_ 1 1#1
  let main_v41 : IVec S_ 1 := (fun x v => Host.reduce IntOp.andi x v reducesTo_S500000_S_d0 h_S_) main_v40 main_c_15
  let main_v42 : IVec S_ 1 := andi main_v35 main_v41
  let main_c_16 : IVec S_ 32 := constantI S_ 32 0#32
  let main_v43 : IVec S500000 32 := broadcastInDim S500000 ![] bcast_S_S500000 main_c_16
  let main_v44 : IVec S500000 1 := cmpi .sge main_arg6 main_v43
  let main_c_17 : IVec S_ 32 := constantI S_ 32 100000#32
  let main_v45 : IVec S500000 32 := broadcastInDim S500000 ![] bcast_S_S500000 main_c_17
  let main_v46 : IVec S500000 1 := cmpi .slt main_arg6 main_v45
  let main_v47 : IVec S500000 1 := andi main_v44 main_v46
  let main_c_18 : IVec S_ 1 := constantI S_ 1 1#1
  let main_v48 : IVec S_ 1 := (fun x v => Host.reduce IntOp.andi x v reducesTo_S500000_S_d0 h_S_) main_v47 main_c_18
  let main_v49 : IVec S_ 1 := andi main_v42 main_v48
  main_v49

def fn_part1 {F : FTy → Type} [FloatOps F] (main_arg2 : IVec S500000 32) (main_arg4 : IVec S500000 32) (main_arg6 : IVec S500000 32) (main_arg10 : FVec F S128x128 .f32) (main_arg11 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg11
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S500000 32 := broadcastInDim S500000 ![] bcast_S_S500000 main_c_10
  let main_v30 : IVec S500000 1 := cmpi .sge main_arg2 main_v29
  let main_c_11 : IVec S_ 32 := constantI S_ 32 100000#32
  let main_v31 : IVec S500000 32 := broadcastInDim S500000 ![] bcast_S_S500000 main_c_11
  let main_v32 : IVec S500000 1 := cmpi .slt main_arg2 main_v31
  let main_v33 : IVec S500000 1 := andi main_v30 main_v32
  fn_part2 (F := F) main_arg4 main_arg6 main_v28 main_v33

def fn {F : FTy → Type} [FloatOps F] (main_arg0 : FVec F S100000x128 .f32) (main_arg1 : IVec S500000 32) (main_arg2 : IVec S500000 32) (main_arg3 : IVec S1000000 32) (main_arg4 : IVec S500000 32) (main_arg5 : IVec S1500000 32) (main_arg6 : IVec S500000 32) (main_arg7 : FVec F S128x128 .f32) (main_arg8 : FVec F S256x128 .f32) (main_arg9 : FVec F S384x128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x128 .f32 := Host.absf main_arg8
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S384x128 .f32 := Host.absf main_arg9
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg2 main_arg4 main_arg6 main_arg10 main_arg11 main_v13 main_v16
-- ==== Kernel.lean ====
abbrev S100000x128 : Shape := ⟨2, ![100000, 128]⟩
abbrev S500000 : Shape := ⟨1, ![500000]⟩
abbrev S1000000 : Shape := ⟨1, ![1000000]⟩
abbrev S1500000 : Shape := ⟨1, ![1500000]⟩
abbrev S128x128 : Shape := ⟨2, ![128, 128]⟩
abbrev S256x128 : Shape := ⟨2, ![256, 128]⟩
abbrev S384x128 : Shape := ⟨2, ![384, 128]⟩
abbrev S128 : Shape := ⟨1, ![128]⟩
abbrev S1x128 : Shape := ⟨2, ![1, 128]⟩
abbrev S4000x128 : Shape := ⟨2, ![4000, 128]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S1000000x1 : Shape := ⟨2, ![1000000, 1]⟩
abbrev S1000000x128 : Shape := ⟨2, ![1000000, 128]⟩
abbrev S500000x256 : Shape := ⟨2, ![500000, 256]⟩
abbrev S4000x256 : Shape := ⟨2, ![4000, 256]⟩
abbrev S1500000x1 : Shape := ⟨2, ![1500000, 1]⟩
abbrev S1500000x128 : Shape := ⟨2, ![1500000, 128]⟩
abbrev S500000x384 : Shape := ⟨2, ![500000, 384]⟩
abbrev S4000x384 : Shape := ⟨2, ![4000, 384]⟩

abbrev nBuf : Space → Nat
  | .hbm => 166
  | .vmem => 21
  | .smem => 0
  | _ => 0

abbrev hbmTy0_0 (i : Nat) : BufTy := match i % 128 with
  | 0 => ⟨S100000x128, .f32⟩
  | 1 => ⟨S500000, .i32⟩
  | 2 => ⟨S500000, .i32⟩
  | 3 => ⟨S1000000, .i32⟩
  | 4 => ⟨S500000, .i32⟩
  | 5 => ⟨S1500000, .i32⟩
  | 6 => ⟨S500000, .i32⟩
  | 7 => ⟨S128x128, .f32⟩
  | 8 => ⟨S256x128, .f32⟩
  | 9 => ⟨S384x128, .f32⟩
  | 10 => ⟨S128x128, .f32⟩
  | 11 => ⟨S128, .f32⟩
  | 12 => ⟨S100000x128, .bf16⟩
  | 13 => ⟨S128x128, .f32⟩
  | 14 => ⟨S128x128, .bf16⟩
  | 15 => ⟨S1x128, .f32⟩
  | 16 => ⟨S100000x128, .f32⟩
  | 17 => ⟨S_, .i32⟩
  | 18 => ⟨S500000, .i32⟩
  | 19 => ⟨S500000, .i1⟩
  | 20 => ⟨S_, .i32⟩
  | 21 => ⟨S500000, .i32⟩
  | 22 => ⟨S500000, .i32⟩
  | 23 => ⟨S500000, .i32⟩
  | 24 => ⟨S500000x1, .i32⟩
  | 25 => ⟨S500000x128, .bf16⟩
  | 26 => ⟨S128x128, .bf16⟩
  | 27 => ⟨S500000x128, .bf16⟩
  | 28 => ⟨S_, .f32⟩
  | 29 => ⟨S500000, .f32⟩
  | 30 => ⟨S_, .f32⟩
  | 31 => ⟨S100000, .f32⟩
  | 32 => ⟨S500000x1, .i32⟩
  | 33 => ⟨S100000, .f32⟩
  | 34 => ⟨S_, .f32⟩
  | 35 => ⟨S100000, .f32⟩
  | 36 => ⟨S100000, .i1⟩
  | 37 => ⟨S_, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000, .f32⟩
  | 53 => ⟨S500000x1, .f32⟩
  | 54 => ⟨S500000x128, .f32⟩
  | 55 => ⟨S500000x128, .f32⟩
  | 56 => ⟨S500000x128, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S100000x128, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x128, .bf16⟩
  | 75 => ⟨S500000x256, .bf16⟩
  | 76 => ⟨S256x128, .bf16⟩
  | 77 => ⟨S500000x128, .bf16⟩
  | 78 => ⟨S_, .f32⟩
  | 79 => ⟨S500000, .f32⟩
  | 80 => ⟨S_, .f32⟩
  | 81 => ⟨S100000, .f32⟩
  | 82 => ⟨S500000x1, .i32⟩
  | 83 => ⟨S100000, .f32⟩
  | 84 => ⟨S_, .f32⟩
  | 85 => ⟨S100000, .f32⟩
  | 86 => ⟨S100000, .i1⟩
  | 87 => ⟨S_, .f32⟩
  | 88 => ⟨S100000, .f32⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000, .f32⟩
  | 103 => ⟨S500000x1, .f32⟩
  | 104 => ⟨S500000x128, .f32⟩
  | 105 => ⟨S500000x128, .f32⟩
  | 106 => ⟨S500000x128, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S100000x128, .f32⟩
  | 116 => ⟨S_, .i32⟩
  | 117 => ⟨S1500000, .i32⟩
  | 118 => ⟨S1500000, .i1⟩
  | 119 => ⟨S_, .i32⟩
  | 120 => ⟨S1500000, .i32⟩
  | 121 => ⟨S1500000, .i32⟩
  | 122 => ⟨S1500000, .i32⟩
  | 123 => ⟨S1500000x1, .i32⟩
  | 124 => ⟨S1500000x128, .bf16⟩
  | 125 => ⟨S500000x384, .bf16⟩
  | 126 => ⟨S384x128, .bf16⟩
  | 127 => ⟨S500000x128, .bf16⟩
  | _ => ⟨S100000x128, .f32⟩

abbrev hbmTy0_1 (i : Nat) : BufTy := match i % 128 with
  | 0 => ⟨S_, .f32⟩
  | 1 => ⟨S500000, .f32⟩
  | 2 => ⟨S_, .f32⟩
  | 3 => ⟨S100000, .f32⟩
  | 4 => ⟨S500000x1, .i32⟩
  | 5 => ⟨S100000, .f32⟩
  | 6 => ⟨S_, .f32⟩
  | 7 => ⟨S100000, .f32⟩
  | 8 => ⟨S100000, .i1⟩
  | 9 => ⟨S_, .f32⟩
  | 10 => ⟨S100000, .f32⟩
  | 11 => ⟨S100000, .f32⟩
  | 12 => ⟨S_, .f32⟩
  | 13 => ⟨S_, .f32⟩
  | 14 => ⟨S100000, .f32⟩
  | 15 => ⟨S100000, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000, .f32⟩
  | 25 => ⟨S500000x1, .f32⟩
  | 26 => ⟨S500000x128, .f32⟩
  | 27 => ⟨S500000x128, .f32⟩
  | 28 => ⟨S500000x128, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .bf16⟩
  | .local _ .vmem, ⟨1, _⟩ => ⟨S4000x128, .bf16⟩
  | .local _ .vmem, ⟨2, _⟩ => ⟨S128x128, .bf16⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .bf16⟩
  | .local _ .vmem, ⟨7, _⟩ => ⟨S4000x128, .bf16⟩
  | .local _ .vmem, ⟨8, _⟩ => ⟨S128x128, .bf16⟩
  | .local _ .vmem, ⟨9, _⟩ => ⟨S4000x128, .bf16⟩
  | .local _ .vmem, ⟨10, _⟩ => ⟨S4000x128, .bf16⟩
  | .local _ .vmem, ⟨11, _⟩ => ⟨S4000x256, .bf16⟩
  | .local _ .vmem, ⟨12, _⟩ => ⟨S4000x256, .bf16⟩
  | .local _ .vmem, ⟨13, _⟩ => ⟨S256x128, .bf16⟩
  | .local _ .vmem, ⟨14, _⟩ => ⟨S4000x128, .bf16⟩
  | .local _ .vmem, ⟨15, _⟩ => ⟨S4000x128, .bf16⟩
  | .local _ .vmem, ⟨16, _⟩ => ⟨S4000x384, .bf16⟩
  | .local _ .vmem, ⟨17, _⟩ => ⟨S4000x384, .bf16⟩
  | .local _ .vmem, ⟨18, _⟩ => ⟨S384x128, .bf16⟩
  | .local _ .vmem, ⟨19, _⟩ => ⟨S4000x128, .bf16⟩
  | .local _ .vmem, ⟨20, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_cst_14 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_call1_v0 : Ref sig .tc := ⟨.hbm, 91, rfl⟩
abbrev main_call1_v1 : Ref sig .tc := ⟨.hbm, 92, rfl⟩
abbrev main_v59 : Ref sig .tc := ⟨.hbm, 93, rfl⟩
abbrev main_c_16 : Ref sig .tc := ⟨.hbm, 94, rfl⟩
abbrev main_v60 : Ref sig .tc := ⟨.hbm, 95, rfl⟩
abbrev main_v61 : Ref sig .tc := ⟨.hbm, 96, rfl⟩
abbrev main_c_17 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_18 : Ref sig .tc := ⟨.hbm, 107, rfl⟩
abbrev main_v71 : Ref sig .tc := ⟨.hbm, 108, rfl⟩
abbrev main_v72 : Ref sig .tc := ⟨.hbm, 109, rfl⟩
abbrev main_c_19 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_c_20 : Ref sig .tc := ⟨.hbm, 116, rfl⟩
abbrev main_v78 : Ref sig .tc := ⟨.hbm, 117, rfl⟩
abbrev main_v79 : Ref sig .tc := ⟨.hbm, 118, rfl⟩
abbrev main_c_21 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_22 : Ref sig .tc := ⟨.hbm, 128, rfl⟩
abbrev main_v88 : Ref sig .tc := ⟨.hbm, 129, rfl⟩
abbrev main_cst_23 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_24 : Ref sig .tc := ⟨.hbm, 134, rfl⟩
abbrev main_v92 : Ref sig .tc := ⟨.hbm, 135, rfl⟩
abbrev main_v93 : Ref sig .tc := ⟨.hbm, 136, rfl⟩
abbrev main_cst_25 : Ref sig .tc := ⟨.hbm, 137, rfl⟩
abbrev main_v94 : Ref sig .tc := ⟨.hbm, 138, rfl⟩
abbrev main_v95 : Ref sig .tc := ⟨.hbm, 139, rfl⟩
abbrev main_cst_26 : Ref sig .tc := ⟨.hbm, 140, rfl⟩
abbrev main_call2_v0 : Ref sig .tc := ⟨.hbm, 141, rfl⟩
abbrev main_call2_v1 : Ref sig .tc := ⟨.hbm, 142, rfl⟩
abbrev main_v96 : Ref sig .tc := ⟨.hbm, 143, rfl⟩
abbrev main_c_27 : Ref sig .tc := ⟨.hbm, 144, rfl⟩
abbrev main_v97 : Ref sig .tc := ⟨.hbm, 145, rfl⟩
abbrev main_v98 : Ref sig .tc := ⟨.hbm, 146, rfl⟩
abbrev main_c_28 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_c_29 : Ref sig .tc := ⟨.hbm, 157, rfl⟩
abbrev main_v108 : Ref sig .tc := ⟨.hbm, 158, rfl⟩
abbrev main_v109 : Ref sig .tc := ⟨.hbm, 159, rfl⟩
abbrev main_c_30 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S384x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bitsLt_bf16_f32 : FTy.bits .bf16 < FTy.bits .f32
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S500000 : S_.BroadcastsInDim S500000 (![] : Fin 0 → Fin S500000.rank)
  bcast_S500000_S500000x1_0 : S500000.BroadcastsInDim S500000x1 (![0] : Fin 1 → Fin S500000x1.rank)
  packedbf16_S4000x128_S4000x128_0_0 : (Rect.unit (s := S4000x128) ![0, 0] S4000x128.size inb_S4000x128_S4000x128_0_0).PackedRows (EltTy.packing .bf16)
  bcast_S_S100000 : S_.BroadcastsInDim S100000 (![] : Fin 0 → Fin S100000.rank)
  shapeCasts_S500000_S500000x1 : S500000.ShapeCasts S500000x1
  bcast_S500000x1_S500000x128_0_1 : S500000x1.BroadcastsInDim S500000x128 (![0, 1] : Fin 2 → Fin S500000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000x128_S500000x256 : S1000000x128.ShapeCasts S500000x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S_S1500000 : S_.BroadcastsInDim S1500000 (![] : Fin 0 → Fin S1500000.rank)
  bcast_S1500000_S1500000x1_0 : S1500000.BroadcastsInDim S1500000x1 (![0] : Fin 1 → Fin S1500000x1.rank)
  shapeCasts_S1500000x128_S500000x384 : S1500000x128.ShapeCasts S500000x384
  inb_S4000x384_S4000x384_0_0 : ∀ a, (![0, 0] : Fin 2 → Nat) a + S4000x384.size a ≤ S4000x384.size a
  h_S4000x384 : 0 < S4000x384.numel
  shapeCasts_S4000x384_S4000x384 : S4000x384.ShapeCasts S4000x384
  inb_S384x128_S384x128_0_0 : ∀ a, (![0, 0] : Fin 2 → Nat) a + S384x128.size a ≤ S384x128.size a
  h_S384x128 : 0 < S384x128.numel
  shapeCasts_S384x128_S384x128 : S384x128.ShapeCasts S384x128
  dot_S4000x128_S128x128_S4000x128_1_0_0_1_n_n_wf : DotDims.WF S4000x128 S128x128 S4000x128 [1] [0] [0] [1] [] []
  gather_S100000x128_S500000x1_S500000x128_1_0_n_n_0_1_1128_wf : GatherDims.WF S100000x128 S500000x1 S500000x128 [1] [0] [] [0] [] 1 ![1, 128]
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  scatter_S100000x128_S500000x1_S500000x128_1_0_0_1_wf : ScatterDims.WF S100000x128 S500000x1 S500000x128 [1] [0] [0] 1
  gather_S100000x128_S1000000x1_S1000000x128_1_0_n_n_0_1_1128_wf : GatherDims.WF S100000x128 S1000000x1 S1000000x128 [1] [0] [] [0] [] 1 ![1, 128]
  dot_S4000x256_S256x128_S4000x128_1_0_0_1_n_n_wf : DotDims.WF S4000x256 S256x128 S4000x128 [1] [0] [0] [1] [] []
  gather_S100000x128_S1500000x1_S1500000x128_1_0_n_n_0_1_1128_wf : GatherDims.WF S100000x128 S1500000x1 S1500000x128 [1] [0] [] [0] [] 1 ![1, 128]
  dot_S4000x384_S384x128_S4000x128_1_0_0_1_n_n_wf : DotDims.WF S4000x384 S384x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .bf16 = 32 ∨ (Rect.block (s := S100000x128) S4000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S500000x128.size a
  hwx1_0 : ∀ i : grid1.Coords, EltTy.bits .bf16 = 32 ∨ (Rect.block (s := S500000x128) S4000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S500000x128.size a
  hwx1_2 : ∀ i : grid1.Coords, EltTy.bits .bf16 = 32 ∨ (Rect.block (s := S500000x128) S4000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S500000x256.size a
  hwx2_0 : ∀ i : grid2.Coords, EltTy.bits .bf16 = 32 ∨ (Rect.block (s := S500000x256) S4000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S500000x128.size a
  hwx2_2 : ∀ i : grid2.Coords, EltTy.bits .bf16 = 32 ∨ (Rect.block (s := S500000x128) S4000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x384.size a ≤ S500000x384.size a
  hwx3_0 : ∀ i : grid3.Coords, EltTy.bits .bf16 = 32 ∨ (Rect.block (s := S500000x384) S4000x384.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384x128.size a ≤ S384x128.size a
  hwx3_1 : ∀ i : grid3.Coords, EltTy.bits .bf16 = 32 ∨ (Rect.block (s := S384x128) S384x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S500000x128.size a
  hwx3_2 : ∀ i : grid3.Coords, EltTy.bits .bf16 = 32 ∨ (Rect.block (s := S500000x128) S4000x128.size (cc3_transform_2 i) (hinb3_2 i)).WholeWords (EltTy.packing .bf16)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1500000x1_S1500000x128_1_0_n_n_0_1_1128 : GatherDims S100000x128 S1500000x1 S1500000x128 where
  offsetDims := [1]
  collapsedSliceDims := [0]
  operandBatchingDims := []
  startIndicesBatchingDims := []
  startIndexMap := [0]
  indexVectorDim := 1
  sliceSizes := ![1, 128]
  wf := gather_S100000x128_S1500000x1_S1500000x128_1_0_n_n_0_1_1128_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf

abbrev win0_0 : Pipeline.Window sig grid0 :=
  Pipeline.Window.ofSpec (Memref.whole main_v0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S4000x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S384x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S500000 : Shape := ⟨1, ![500000]⟩
abbrev S1000000 : Shape := ⟨1, ![1000000]⟩
abbrev S1500000 : Shape := ⟨1, ![1500000]⟩
abbrev S128x128 : Shape := ⟨2, ![128, 128]⟩
abbrev S256x128 : Shape := ⟨2, ![256, 128]⟩
abbrev S384x128 : Shape := ⟨2, ![384, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S1000000x1 : Shape := ⟨2, ![1000000, 1]⟩
abbrev S1000000x128 : Shape := ⟨2, ![1000000, 128]⟩
abbrev S500000x256 : Shape := ⟨2, ![500000, 256]⟩
abbrev S1500000x1 : Shape := ⟨2, ![1500000, 1]⟩
abbrev S1500000x128 : Shape := ⟨2, ![1500000, 128]⟩
abbrev S500000x384 : Shape := ⟨2, ![500000, 384]⟩
abbrev S1x128 : Shape := ⟨2, ![1, 128]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S500000, .i32⟩
  | 2 => ⟨S500000, .i32⟩
  | 3 => ⟨S1000000, .i32⟩
  | 4 => ⟨S500000, .i32⟩
  | 5 => ⟨S1500000, .i32⟩
  | 6 => ⟨S500000, .i32⟩
  | 7 => ⟨S128x128, .f32⟩
  | 8 => ⟨S256x128, .f32⟩
  | 9 => ⟨S384x128, .f32⟩
  | 10 => ⟨S128x128, .f32⟩
  | 11 => ⟨S128, .f32⟩
  | 12 => ⟨S_, .f32⟩
  | 13 => ⟨S100000x128, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x128, .f32⟩
  | 23 => ⟨S500000x128, .f32⟩
  | 24 => ⟨S_, .f32⟩
  | 25 => ⟨S500000, .f32⟩
  | 26 => ⟨S_, .f32⟩
  | 27 => ⟨S100000, .f32⟩
  | 28 => ⟨S500000x1, .i32⟩
  | 29 => ⟨S100000, .f32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000, .f32⟩
  | 39 => ⟨S_, .f32⟩
  | 40 => ⟨S500000, .f32⟩
  | 41 => ⟨S500000, .f32⟩
  | 42 => ⟨S500000x1, .f32⟩
  | 43 => ⟨S500000x128, .f32⟩
  | 44 => ⟨S500000x128, .f32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S100000x128, .f32⟩
  | 54 => ⟨S_, .i32⟩
  | 55 => ⟨S1000000, .i32⟩
  | 56 => ⟨S1000000, .i1⟩
  | 57 => ⟨S_, .i32⟩
  | 58 => ⟨S1000000, .i32⟩
  | 59 => ⟨S1000000, .i32⟩
  | 60 => ⟨S1000000, .i32⟩
  | 61 => ⟨S1000000x1, .i32⟩
  | 62 => ⟨S1000000x128, .f32⟩
  | 63 => ⟨S500000x256, .f32⟩
  | 64 => ⟨S500000x128, .f32⟩
  | 65 => ⟨S_, .f32⟩
  | 66 => ⟨S500000, .f32⟩
  | 67 => ⟨S_, .f32⟩
  | 68 => ⟨S100000, .f32⟩
  | 69 => ⟨S500000x1, .i32⟩
  | 70 => ⟨S100000, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000, .f32⟩
  | 80 => ⟨S_, .f32⟩
  | 81 => ⟨S500000, .f32⟩
  | 82 => ⟨S500000, .f32⟩
  | 83 => ⟨S500000x1, .f32⟩
  | 84 => ⟨S500000x128, .f32⟩
  | 85 => ⟨S500000x128, .f32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S500000x1, .i32⟩
  | 94 => ⟨S100000x128, .f32⟩
  | 95 => ⟨S_, .i32⟩
  | 96 => ⟨S1500000, .i32⟩
  | 97 => ⟨S1500000, .i1⟩
  | 98 => ⟨S_, .i32⟩
  | 99 => ⟨S1500000, .i32⟩
  | 100 => ⟨S1500000, .i32⟩
  | 101 => ⟨S1500000, .i32⟩
  | 102 => ⟨S1500000x1, .i32⟩
  | 103 => ⟨S1500000x128, .f32⟩
  | 104 => ⟨S500000x384, .f32⟩
  | 105 => ⟨S500000x128, .f32⟩
  | 106 => ⟨S_, .f32⟩
  | 107 => ⟨S500000, .f32⟩
  | 108 => ⟨S_, .f32⟩
  | 109 => ⟨S100000, .f32⟩
  | 110 => ⟨S500000x1, .i32⟩
  | 111 => ⟨S100000, .f32⟩
  | 112 => ⟨S_, .i32⟩
  | 113 => ⟨S500000, .i32⟩
  | 114 => ⟨S500000, .i1⟩
  | 115 => ⟨S_, .i32⟩
  | 116 => ⟨S500000, .i32⟩
  | 117 => ⟨S500000, .i32⟩
  | 118 => ⟨S500000, .i32⟩
  | 119 => ⟨S500000x1, .i32⟩
  | 120 => ⟨S500000, .f32⟩
  | 121 => ⟨S_, .f32⟩
  | 122 => ⟨S500000, .f32⟩
  | 123 => ⟨S500000, .f32⟩
  | 124 => ⟨S500000x1, .f32⟩
  | 125 => ⟨S500000x128, .f32⟩
  | 126 => ⟨S500000x128, .f32⟩
  | 127 => ⟨S_, .i32⟩
  | _ => ⟨S100000x128, .f32⟩

abbrev hbmTy0_1 (i : Nat) : BufTy := match i % 128 with
  | 0 => ⟨S500000, .i32⟩
  | 1 => ⟨S500000, .i1⟩
  | 2 => ⟨S_, .i32⟩
  | 3 => ⟨S500000, .i32⟩
  | 4 => ⟨S500000, .i32⟩
  | 5 => ⟨S500000, .i32⟩
  | 6 => ⟨S500000x1, .i32⟩
  | 7 => ⟨S100000x128, .f32⟩
  | 8 => ⟨S128x128, .f32⟩
  | 9 => ⟨S100000x128, .f32⟩
  | 10 => ⟨S1x128, .f32⟩
  | 11 => ⟨S100000x128, .f32⟩
  | 12 => ⟨S100000x128, .f32⟩
  | 13 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_cst_11 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_c_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_14 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_15 : Ref sig .tc := ⟨.hbm, 86, rfl⟩
abbrev main_v57 : Ref sig .tc := ⟨.hbm, 87, rfl⟩
abbrev main_v58 : Ref sig .tc := ⟨.hbm, 88, rfl⟩
abbrev main_c_16 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_17 : Ref sig .tc := ⟨.hbm, 95, rfl⟩
abbrev main_v64 : Ref sig .tc := ⟨.hbm, 96, rfl⟩
abbrev main_v65 : Ref sig .tc := ⟨.hbm, 97, rfl⟩
abbrev main_c_18 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_19 : Ref sig .tc := ⟨.hbm, 106, rfl⟩
abbrev main_v73 : Ref sig .tc := ⟨.hbm, 107, rfl⟩
abbrev main_cst_20 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_21 : Ref sig .tc := ⟨.hbm, 112, rfl⟩
abbrev main_v77 : Ref sig .tc := ⟨.hbm, 113, rfl⟩
abbrev main_v78 : Ref sig .tc := ⟨.hbm, 114, rfl⟩
abbrev main_c_22 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_23 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_24 : Ref sig .tc := ⟨.hbm, 127, rfl⟩
abbrev main_v89 : Ref sig .tc := ⟨.hbm, 128, rfl⟩
abbrev main_v90 : Ref sig .tc := ⟨.hbm, 129, rfl⟩
abbrev main_c_25 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S100000 : S_.BroadcastsInDim S100000 (![] : Fin 0 → Fin S100000.rank)
  bcast_S500000x1_S500000x128_0_1 : S500000x1.BroadcastsInDim S500000x128 (![0, 1] : Fin 2 → Fin S500000x128.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000x128_S500000x256 : S1000000x128.ShapeCasts S500000x256
  bcast_S_S1500000 : S_.BroadcastsInDim S1500000 (![] : Fin 0 → Fin S1500000.rank)
  bcast_S1500000_S1500000x1_0 : S1500000.BroadcastsInDim S1500000x1 (![0] : Fin 1 → Fin S1500000x1.rank)
  shapeCasts_S1500000x128_S500000x384 : S1500000x128.ShapeCasts S500000x384
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  dot_S500000x128_S128x128_S500000x128_1_0_0_1_n_n_wf : DotDims.WF S500000x128 S128x128 S500000x128 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  scatter_S100000x128_S500000x1_S500000x128_1_0_0_1_wf : ScatterDims.WF S100000x128 S500000x1 S500000x128 [1] [0] [0] 1
  gather_S100000x128_S1000000x1_S1000000x128_1_0_n_n_0_1_1128_wf : GatherDims.WF S100000x128 S1000000x1 S1000000x128 [1] [0] [] [0] [] 1 ![1, 128]
  dot_S500000x256_S256x128_S500000x128_1_0_0_1_n_n_wf : DotDims.WF S500000x256 S256x128 S500000x128 [1] [0] [0] [1] [] []
  gather_S100000x128_S1500000x1_S1500000x128_1_0_n_n_0_1_1128_wf : GatherDims.WF S100000x128 S1500000x1 S1500000x128 [1] [0] [] [0] [] 1 ![1, 128]
  dot_S500000x384_S384x128_S500000x128_1_0_0_1_n_n_wf : DotDims.WF S500000x384 S384x128 S500000x128 [1] [0] [0] [1] [] []
  dot_S100000x128_S128x128_S100000x128_1_0_0_1_n_n_wf : DotDims.WF S100000x128 S128x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def gather_S100000x128_S1500000x1_S1500000x128_1_0_n_n_0_1_1128 : GatherDims S100000x128 S1500000x1 S1500000x128 where
  offsetDims := [1]
  collapsedSliceDims := [0]
  operandBatchingDims := []
  startIndicesBatchingDims := []
  startIndexMap := [0]
  indexVectorDim := 1
  sliceSizes := ![1, 128]
  wf := gather_S100000x128_S1500000x1_S1500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's whole run, read at every buffer that outlives a kernel launch.

  The program is four kernel launches among stretches of host operations.  Its run is the chain of those segments; the
  contents of every such buffer after the run are the fold of the segments over the launch memory: a host stretch applies
  its operations, a launch replaces the arrays its windows name by what its write-backs leave.  This module states that
  fold as the post of the run; the later modules read it buffer by buffer.
-/
import proofs.«161958_j3049426780188_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every buffer that is not a launch's staging buffer ends at the fold of
    the segments over the launch memory. -/
theorem run : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- The run's post at one TensorCore buffer that no launch stages through. -/
theorem read_of_run {r : PUnit × MemSt nD τ sig (Elt F)}
    (h : ∀ c : Dev nD, ∀ b ∈ Pipeline.ucRefs τ sig, r.2.mem (((c : Thread nD τ)).1, b) = W15 m ρ c b)
    (c : Dev nD) (b : Ref sig .tc) (hb : ¬ (Proc.devRef .tc b : DevRef τ sig).isScoped) :
    r.2.mem ((c : Thread nD τ).loc b) = W15 m ρ c (Proc.devRef .tc b) :=
  h c _ (mem_uc b hb)

end Cert.KernelIdeal.Whole

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.KProj.lean ====
/-
  Kernel launch 0: the dense projection with its bias, as one function of whole arrays.

  The launch cuts the 100000×128 node features into 25 blocks of 4000 rows; at each block the body multiplies the block
  by the whole 128×128 (transposed) weight matrix on the matrix unit, from a zero accumulator, adds the bias row to every
  row, and writes the 4000×128 result back to the same rows of the output.  Entry (r, q) of the output is therefore the sum
  over j of x(r, j) · w(j, q), plus bias(q), whatever block r lies in.
-/
import proofs.«161958_j3049426780188_2_alg».proof.Proof.Gen.KernelIdeal.Frame
import proofs.«161958_j3049426780188_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Proj

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The matrix unit's dimension record contracts the left operand's lanes with the right operand's rows -/

theorem dl0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem dl1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem dr0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem dr1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's arithmetic on one block, at entry (p, q) of the block: the contraction sum plus the bias row's lane q. -/
theorem pay_apply (x0 : FVec Ideal S4000x128 .bf16) (x1 : FVec Ideal S128x128 .bf16) (x2 : FVec Ideal S1x128 .f32)
    (p : Fin 4000) (q : Fin 128) :
    (k0_pay1 (F := Ideal) x0 x1 x2 (ix2 p q) : EReal)
      = ((∑ j : Fin 128, x0 (ix2 p j) * x1 (ix2 j q) : EReal) + x2 (ix2 (0 : Fin 1) q) : EReal) := by
  unfold k0_pay1
  simp only [shapeCast_self]
  rw [addf_apply, broadcastTo_1b_ab_apply,
    PlainDot.matmul_zero_apply dot_S4000x128_S128x128_S4000x128_1_0_0_1_n_n none rfl rfl dl0 dl1 dr0 dr1 x0 x1 p q]

/-- The whole projection: entry (r, q) is the sum over j of x(r, j) · w(j, q), plus bias(q). -/
def G (a : FVec Ideal S100000x128 .bf16) (w : FVec Ideal S128x128 .bf16) (b : FVec Ideal S1x128 .f32) :
    FVec Ideal S100000x128 .f32 :=
  fun i => ((∑ j : Fin 128, a (ix2 (i 0) j) * w (ix2 j (i 1)) : EReal) + b (ix2 (0 : Fin 1) (i 1)) : EReal)

/-- The index maps over the grid: the row windows sit at block row t, the weight and bias windows at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole projection. -/
theorem flushed_eq (c : Dev nD) (t : Fin cfg0.N) :
    (dat0 V c).flushed 3 t = ((cfg0.win 3).blk t).view.read (Elt Ideal)
      (G (V c main_v0 : S100000x128.Idx → Elt Ideal .bf16) (V c main_v2 : S128x128.Idx → Elt Ideal .bf16)
        (V c main_v3 : S1x128.Idx → Elt Ideal .f32)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S1x128) hz]
  obtain ⟨e0, e1, e2, e3, e4, e5, e6, e7⟩ := idx_facts t
  funext y
  obtain ⟨p, q, rfl⟩ : ∃ (p : Fin 4000) (q : Fin 128), y = ix2 p q := ⟨y 0, y 1, eq_ix2 y⟩
  refine (pay_apply (iblk0 V c 0 t) (iblk0 V c 1 t) (iblk0 V c 2 t) p q).trans ?_
  have hb : (iblk0 V c 2 t : S1x128.Idx → Elt Ideal .f32) (ix2 (0 : Fin 1) q)
      = (V c main_v3 : S1x128.Idx → Elt Ideal .f32) (ix2 (0 : Fin 1) ((((cfg0.win 3).blk t).view.emb (ix2 p q)) 1)) := by
    show (V c main_v3 : S1x128.Idx → Elt Ideal .f32) (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  have ha : ∀ j : Fin 128, (iblk0 V c 0 t : S4000x128.Idx → Elt Ideal .bf16) (ix2 p j)
      = (V c main_v0 : S100000x128.Idx → Elt Ideal .bf16) (ix2 ((((cfg0.win 3).blk t).view.emb (ix2 p q)) 0) j) := by
    intro j
    show (V c main_v0 : S100000x128.Idx → Elt Ideal .bf16) (((cfg0.win 0).blk t).view.emb (ix2 p j)) = _
    refine congrArg _ (funext fun a => Fin.ext ?_)
    match a with
    | ⟨0, _⟩ => show win0_0.index t (0 : Fin 2) * 4000 + 1 * p.val = win0_3.index t (0 : Fin 2) * 4000 + 1 * p.val; omega
    | ⟨1, _⟩ => show win0_0.index t (1 : Fin 2) * 128 + 1 * j.val = j.val; omega
  have hw : ∀ j : Fin 128, (iblk0 V c 1 t : S128x128.Idx → Elt Ideal .bf16) (ix2 j q)
      = (V c main_v2 : S128x128.Idx → Elt Ideal .bf16) (ix2 j ((((cfg0.win 3).blk t).view.emb (ix2 p q)) 1)) := by
    intro j
    show (V c main_v2 : S128x128.Idx → Elt Ideal .bf16) (((cfg0.win 1).blk t).view.emb (ix2 j q)) = _
    refine congrArg _ (funext fun a => Fin.ext ?_)
    match a with
    | ⟨0, _⟩ => show win0_1.index t (0 : Fin 2) * 128 + 1 * j.val = j.val; omega
    | ⟨1, _⟩ => show win0_1.index t (1 : Fin 2) * 128 + 1 * q.val = win0_3.index t (1 : Fin 2) * 128 + 1 * q.val; omega
  rw [View.read_apply]
  unfold G
  exact congrArg₂ (fun x y : EReal => x + y)
    (Finset.sum_congr rfl fun j _ => congrArg₂ (fun x y : EReal => x * y) (ha j) (hw j)) hb

/-- An index of the output is in point t's block iff its row is among the block's 4000 rows. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v4).slice (win0_3.rect t)).set ↔ _
  rw [View.set_slice_whole, Rect.mem_set_unit]
  exact Iff.rfl

/-- Row r lies in block r / 4000. -/
theorem cover (i : S100000x128.Idx) : ∃ t : Fin cfg0.N, (cfg0.win 3).flush t = true ∧ i ∈ ((cfg0.win 3).blk t).view.set := by
  have h0 : (i 0).val < 100000 := (i 0).isLt
  have h1 : (i 1).val < 128 := (i 1).isLt
  have hN : cfg0.N = 25 := N_0
  refine ⟨⟨(i 0).val / 4000, by rw [hN]; omega⟩, flush0_3 _, ?_⟩
  rw [mem_blk]
  obtain ⟨e0, e1, e2, e3, e4, e5, e6, e7⟩ := idx_facts ⟨(i 0).val / 4000, by rw [hN]; omega⟩
  intro a
  match a with
  | ⟨0, _⟩ =>
    show win0_3.index ⟨(i 0).val / 4000, _⟩ (0 : Fin 2) * 4000 ≤ (i 0).val ∧ (i 0).val < win0_3.index ⟨(i 0).val / 4000, _⟩ (0 : Fin 2) * 4000 + 4000
    rw [e6]; show (i 0).val / 4000 * 4000 ≤ (i 0).val ∧ (i 0).val < (i 0).val / 4000 * 4000 + 4000; omega
  | ⟨1, _⟩ =>
    show win0_3.index ⟨(i 0).val / 4000, _⟩ (1 : Fin 2) * 128 ≤ (i 1).val ∧ (i 1).val < win0_3.index ⟨(i 0).val / 4000, _⟩ (1 : Fin 2) * 128 + 128
    rw [e7]; omega

/-- The output array after the launch is the whole projection of the arrays the launch found. -/
theorem final (c : Dev nD) : (dat0 V c).arrAt 3 cfg0.N
    = G (V c main_v0 : S100000x128.Idx → Elt Ideal .bf16) (V c main_v2 : S128x128.Idx → Elt Ideal .bf16)
        (V c main_v3 : S1x128.Idx → Elt Ideal .f32) :=
  (dat0 V c).arrAt_eq_of_cover 3 _ (fun t _ => flushed_eq V c t) cover

end Cert.KernelIdeal.Proj

end
-- ==== Proof.KEdge1.lean ====
/-
  Kernel launch 1: one edge type's projection, as one function of whole arrays.

  The launch cuts the 500000×128 array of gathered source rows into 125 blocks of 4000 rows; at each block the body
  multiplies the block by the whole 128×128 weight matrix on the matrix unit, from a zero accumulator, and writes the 4000×128
  product back to the same rows of the output.  Entry (e, q) of the output is therefore the sum over j of
  gathered(e, j) · weight(j, q), whatever block e lies in; narrowing the product to a shorter float format is the identity
  on extended reals.
-/
import proofs.«161958_j3049426780188_2_alg».proof.Proof.Gen.KernelIdeal.Frame
import proofs.«161958_j3049426780188_2_alg».proof.Proof.LibPlainDot
import Idealize.ShloMosaic.Lib.Pipeline.Value
import Idealize.ShloMosaic.Lib.ValueIdx

set_option maxRecDepth 16384

noncomputable section

namespace Cert.KernelIdeal.Edge1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The matrix unit's dimension record contracts the left operand's lanes with the right operand's rows -/

theorem dl0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem dl1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem dr0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem dr1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The body's arithmetic on one block, at entry (p, q) of the block: the plain contraction sum. -/
theorem pay_apply (x0 : FVec Ideal S4000x128 .bf16) (x1 : FVec Ideal S128x128 .bf16) (p : Fin 4000) (q : Fin 128) :
    k1_pay1 x0 x1 (ix2 p q) = ∑ j : Fin 128, x0 (ix2 p j) * x1 (ix2 j q) := by
  unfold k1_pay1
  simp only [shapeCast_self]
  exact PlainDot.matmul_zero_apply dot_S4000x128_S128x128_S4000x128_1_0_0_1_n_n none rfl rfl dl0 dl1 dr0 dr1 x0 x1 p q

/-- The whole product: entry (e, q) is the sum over j of lhs(e, j) · rhs(j, q). -/
def G (a : FVec Ideal S500000x128 .bf16) (w : FVec Ideal S128x128 .bf16) : FVec Ideal S500000x128 .bf16 :=
  fun i => (∑ j : Fin 128, a (ix2 (i 0) j) * w (ix2 j (i 1)) : EReal)

/-- The index maps over the grid: the row windows sit at block row t, the weight window at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product. -/
theorem flushed_eq (c : Dev nD) (t : Fin cfg1.N) :
    (dat1 V c).flushed 2 t = ((cfg1.win 2).blk t).view.read (Elt Ideal)
      (G (V c main_v11 : S500000x128.Idx → Elt Ideal .bf16) (V c main_v12 : S128x128.Idx → Elt Ideal .bf16)) := by
  show (cfg1.win 2).cut (grid1.coords t) ((dat1 V c).after 2 t) = _
  rw [after1_2]
  unfold out1_2
  rw [View.canon_unit_zero hz]
  simp only [View.ld_unit_zero (S := S4000x128) hz, View.ld_unit_zero (S := S128x128) hz]
  obtain ⟨e0, e1, e2, e3, e4, e5⟩ := idx_facts t
  funext y
  obtain ⟨p, q, rfl⟩ : ∃ (p : Fin 4000) (q : Fin 128), y = ix2 p q := ⟨y 0, y 1, eq_ix2 y⟩
  refine (pay_apply (iblk1 V c 0 t) (iblk1 V c 1 t) p q).trans ?_
  have ha : ∀ j : Fin 128, (iblk1 V c 0 t : S4000x128.Idx → Elt Ideal .bf16) (ix2 p j)
      = (V c main_v11 : S500000x128.Idx → Elt Ideal .bf16) (ix2 ((((cfg1.win 2).blk t).view.emb (ix2 p q)) 0) j) := by
    intro j
    show (V c main_v11 : S500000x128.Idx → Elt Ideal .bf16) (((cfg1.win 0).blk t).view.emb (ix2 p j)) = _
    refine congrArg _ (funext fun a => Fin.ext ?_)
    match a with
    | ⟨0, _⟩ => show win1_0.index t (0 : Fin 2) * 4000 + 1 * p.val = win1_2.index t (0 : Fin 2) * 4000 + 1 * p.val; omega
    | ⟨1, _⟩ => show win1_0.index t (1 : Fin 2) * 128 + 1 * j.val = j.val; omega
  have hw : ∀ j : Fin 128, (iblk1 V c 1 t : S128x128.Idx → Elt Ideal .bf16) (ix2 j q)
      = (V c main_v12 : S128x128.Idx → Elt Ideal .bf16) (ix2 j ((((cfg1.win 2).blk t).view.emb (ix2 p q)) 1)) := by
    intro j
    show (V c main_v12 : S128x128.Idx → Elt Ideal .bf16) (((cfg1.win 1).blk t).view.emb (ix2 j q)) = _
    refine congrArg _ (funext fun a => Fin.ext ?_)
    match a with
    | ⟨0, _⟩ => show win1_1.index t (0 : Fin 2) * 128 + 1 * j.val = j.val; omega
    | ⟨1, _⟩ => show win1_1.index t (1 : Fin 2) * 128 + 1 * q.val = win1_2.index t (1 : Fin 2) * 128 + 1 * q.val; omega
  rw [View.read_apply]
  unfold G
  exact Finset.sum_congr rfl fun j _ => congrArg₂ (fun x y : EReal => x * y) (ha j) (hw j)

/-- An index of the output is in point t's block iff its row is among the block's 4000 rows. -/
theorem mem_blk (t : Fin cfg1.N) (i : S500000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v13).slice (win1_2.rect t)).set ↔ _
  rw [View.set_slice_whole, Rect.mem_set_unit]
  exact Iff.rfl

/-- Row r lies in block r / 4000. -/
theorem cover (i : S500000x128.Idx) : ∃ t : Fin cfg1.N, (cfg1.win 2).flush t = true ∧ i ∈ ((cfg1.win 2).blk t).view.set := by
  have h0 : (i 0).val < 500000 := (i 0).isLt
  have h1 : (i 1).val < 128 := (i 1).isLt
  have hN : cfg1.N = 125 := N_1
  refine ⟨⟨(i 0).val / 4000, by rw [hN]; omega⟩, flush1_2 _, ?_⟩
  rw [mem_blk]
  obtain ⟨e0, e1, e2, e3, e4, e5⟩ := idx_facts ⟨(i 0).val / 4000, by rw [hN]; omega⟩
  intro a
  match a with
  | ⟨0, _⟩ =>
    show win1_2.index ⟨(i 0).val / 4000, _⟩ (0 : Fin 2) * 4000 ≤ (i 0).val ∧ (i 0).val < win1_2.index ⟨(i 0).val / 4000, _⟩ (0 : Fin 2) * 4000 + 4000
    rw [e4]; show (i 0).val / 4000 * 4000 ≤ (i 0).val ∧ (i 0).val < (i 0).val / 4000 * 4000 + 4000; omega
  | ⟨1, _⟩ =>
    show win1_2.index ⟨(i 0).val / 4000, _⟩ (1 : Fin 2) * 128 ≤ (i 1).val ∧ (i 1).val < win1_2.index ⟨(i 0).val / 4000, _⟩ (1 : Fin 2) * 128 + 128
    rw [e5]; omega

/-- The output array after the launch is the whole product of the arrays the launch found. -/
theorem final (c : Dev nD) : (dat1 V c).arrAt 2 cfg1.N
    = G (V c main_v11 : S500000x128.Idx → Elt Ideal .bf16) (V c main_v12 : S128x128.Idx → Elt Ideal .bf16) :=
  (dat1 V c).arrAt_eq_of_cover 2 _ (fun t _ => flushed_eq V c t) cover

end Cert.KernelIdeal.Edge1

end
-- ==== Proof.KEdge2.lean ====
/-
  Kernel launch 2: one edge type's projection, as one function of whole arrays.

  The launch cuts the 500000×256 array of gathered source rows into 125 blocks of 4000 rows; at each block the body
  multiplies the block by the whole 256×128 weight matrix on the matrix unit, from a zero accumulator, and writes the 4000×128
  product back to the same rows of the output.  Entry (e, q) of the output is therefore the sum over j of
  gathered(e, j) · weight(j, q), whatever block e lies in; narrowing the product to a shorter float format is the identity
  on extended reals.
-/
import proofs.«161958_j3049426780188_2_alg».proof.Proof.Gen.KernelIdeal.Frame
import proofs.«161958_j3049426780188_2_alg».proof.Proof.LibPlainDot
import Idealize.ShloMosaic.Lib.Pipeline.Value
import Idealize.ShloMosaic.Lib.ValueIdx

set_option maxRecDepth 16384

noncomputable section

namespace Cert.KernelIdeal.Edge2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The matrix unit's dimension record contracts the left operand's lanes with the right operand's rows -/

theorem dl0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem dl1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem dr0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem dr1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The body's arithmetic on one block, at entry (p, q) of the block: the plain contraction sum. -/
theorem pay_apply (x0 : FVec Ideal S4000x256 .bf16) (x1 : FVec Ideal S256x128 .bf16) (p : Fin 4000) (q : Fin 128) :
    k2_pay1 x0 x1 (ix2 p q) = ∑ j : Fin 256, x0 (ix2 p j) * x1 (ix2 j q) := by
  unfold k2_pay1
  simp only [shapeCast_self]
  exact PlainDot.matmul_zero_apply dot_S4000x256_S256x128_S4000x128_1_0_0_1_n_n none rfl rfl dl0 dl1 dr0 dr1 x0 x1 p q

/-- The whole product: entry (e, q) is the sum over j of lhs(e, j) · rhs(j, q). -/
def G (a : FVec Ideal S500000x256 .bf16) (w : FVec Ideal S256x128 .bf16) : FVec Ideal S500000x128 .bf16 :=
  fun i => (∑ j : Fin 256, a (ix2 (i 0) j) * w (ix2 j (i 1)) : EReal)

/-- The index maps over the grid: the row windows sit at block row t, the weight window at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed_eq (c : Dev nD) (t : Fin cfg2.N) :
    (dat2 V c).flushed 2 t = ((cfg2.win 2).blk t).view.read (Elt Ideal)
      (G (V c main_v48 : S500000x256.Idx → Elt Ideal .bf16) (V c main_v49 : S256x128.Idx → Elt Ideal .bf16)) := by
  show (cfg2.win 2).cut (grid2.coords t) ((dat2 V c).after 2 t) = _
  rw [after2_2]
  unfold out2_2
  rw [View.canon_unit_zero hz]
  simp only [View.ld_unit_zero (S := S4000x256) hz, View.ld_unit_zero (S := S256x128) hz]
  obtain ⟨e0, e1, e2, e3, e4, e5⟩ := idx_facts t
  funext y
  obtain ⟨p, q, rfl⟩ : ∃ (p : Fin 4000) (q : Fin 128), y = ix2 p q := ⟨y 0, y 1, eq_ix2 y⟩
  refine (pay_apply (iblk2 V c 0 t) (iblk2 V c 1 t) p q).trans ?_
  have ha : ∀ j : Fin 256, (iblk2 V c 0 t : S4000x256.Idx → Elt Ideal .bf16) (ix2 p j)
      = (V c main_v48 : S500000x256.Idx → Elt Ideal .bf16) (ix2 ((((cfg2.win 2).blk t).view.emb (ix2 p q)) 0) j) := by
    intro j
    show (V c main_v48 : S500000x256.Idx → Elt Ideal .bf16) (((cfg2.win 0).blk t).view.emb (ix2 p j)) = _
    refine congrArg _ (funext fun a => Fin.ext ?_)
    match a with
    | ⟨0, _⟩ => show win2_0.index t (0 : Fin 2) * 4000 + 1 * p.val = win2_2.index t (0 : Fin 2) * 4000 + 1 * p.val; omega
    | ⟨1, _⟩ => show win2_0.index t (1 : Fin 2) * 256 + 1 * j.val = j.val; omega
  have hw : ∀ j : Fin 256, (iblk2 V c 1 t : S256x128.Idx → Elt Ideal .bf16) (ix2 j q)
      = (V c main_v49 : S256x128.Idx → Elt Ideal .bf16) (ix2 j ((((cfg2.win 2).blk t).view.emb (ix2 p q)) 1)) := by
    intro j
    show (V c main_v49 : S256x128.Idx → Elt Ideal .bf16) (((cfg2.win 1).blk t).view.emb (ix2 j q)) = _
    refine congrArg _ (funext fun a => Fin.ext ?_)
    match a with
    | ⟨0, _⟩ => show win2_1.index t (0 : Fin 2) * 256 + 1 * j.val = j.val; omega
    | ⟨1, _⟩ => show win2_1.index t (1 : Fin 2) * 128 + 1 * q.val = win2_2.index t (1 : Fin 2) * 128 + 1 * q.val; omega
  rw [View.read_apply]
  unfold G
  exact Finset.sum_congr rfl fun j _ => congrArg₂ (fun x y : EReal => x * y) (ha j) (hw j)

/-- An index of the output is in point t's block iff its row is among the block's 4000 rows. -/
theorem mem_blk (t : Fin cfg2.N) (i : S500000x128.Idx) :
    i ∈ ((cfg2.win 2).blk t).view.set ↔ ∀ a : Fin 2, win2_2.index t a * S4000x128.size a ≤ (i a).val ∧ (i a).val < win2_2.index t a * S4000x128.size a + S4000x128.size a := by
  show i ∈ ((View.whole main_v50).slice (win2_2.rect t)).set ↔ _
  rw [View.set_slice_whole, Rect.mem_set_unit]
  exact Iff.rfl

/-- Row r lies in block r / 4000. -/
theorem cover (i : S500000x128.Idx) : ∃ t : Fin cfg2.N, (cfg2.win 2).flush t = true ∧ i ∈ ((cfg2.win 2).blk t).view.set := by
  have h0 : (i 0).val < 500000 := (i 0).isLt
  have h1 : (i 1).val < 128 := (i 1).isLt
  have hN : cfg2.N = 125 := N_2
  refine ⟨⟨(i 0).val / 4000, by rw [hN]; omega⟩, flush2_2 _, ?_⟩
  rw [mem_blk]
  obtain ⟨e0, e1, e2, e3, e4, e5⟩ := idx_facts ⟨(i 0).val / 4000, by rw [hN]; omega⟩
  intro a
  match a with
  | ⟨0, _⟩ =>
    show win2_2.index ⟨(i 0).val / 4000, _⟩ (0 : Fin 2) * 4000 ≤ (i 0).val ∧ (i 0).val < win2_2.index ⟨(i 0).val / 4000, _⟩ (0 : Fin 2) * 4000 + 4000
    rw [e4]; show (i 0).val / 4000 * 4000 ≤ (i 0).val ∧ (i 0).val < (i 0).val / 4000 * 4000 + 4000; omega
  | ⟨1, _⟩ =>
    show win2_2.index ⟨(i 0).val / 4000, _⟩ (1 : Fin 2) * 128 ≤ (i 1).val ∧ (i 1).val < win2_2.index ⟨(i 0).val / 4000, _⟩ (1 : Fin 2) * 128 + 128
    rw [e5]; omega

/-- The output array after the launch is the whole product of the arrays the launch found. -/
theorem final (c : Dev nD) : (dat2 V c).arrAt 2 cfg2.N
    = G (V c main_v48 : S500000x256.Idx → Elt Ideal .bf16) (V c main_v49 : S256x128.Idx → Elt Ideal .bf16) :=
  (dat2 V c).arrAt_eq_of_cover 2 _ (fun t _ => flushed_eq V c t) cover

end Cert.KernelIdeal.Edge2

end
-- ==== Proof.KEdge3.lean ====
/-
  Kernel launch 3: one edge type's projection, as one function of whole arrays.

  The launch cuts the 500000×384 array of gathered source rows into 125 blocks of 4000 rows; at each block the body
  multiplies the block by the whole 384×128 weight matrix on the matrix unit, from a zero accumulator, and writes the 4000×128
  product back to the same rows of the output.  Entry (e, q) of the output is therefore the sum over j of
  gathered(e, j) · weight(j, q), whatever block e lies in; narrowing the product to a shorter float format is the identity
  on extended reals.
-/
import proofs.«161958_j3049426780188_2_alg».proof.Proof.Gen.KernelIdeal.Frame
import proofs.«161958_j3049426780188_2_alg».proof.Proof.LibPlainDot
import Idealize.ShloMosaic.Lib.Pipeline.Value
import Idealize.ShloMosaic.Lib.ValueIdx

set_option maxRecDepth 16384

noncomputable section

namespace Cert.KernelIdeal.Edge3

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The matrix unit's dimension record contracts the left operand's lanes with the right operand's rows -/

theorem dl0 (i : S4000x128.Idx) (q : dot_S4000x384_S384x128_S4000x128_1_0_0_1_n_n.contr.Idx) :
    (dot_S4000x384_S384x128_S4000x128_1_0_0_1_n_n.lhsIdx i q 0).val = (i 0).val := by
  unfold DotDims.lhsIdx
  rw [dif_neg (show ¬(0 : Fin S4000x384.rank) ∈ dot_S4000x384_S384x128_S4000x128_1_0_0_1_n_n.lhsBatch by decide), dif_pos (show (0 : Fin S4000x384.rank) ∈ dot_S4000x384_S384x128_S4000x128_1_0_0_1_n_n.lhsNonContracting by decide)]
  rfl
theorem dl1 (i : S4000x128.Idx) (q : dot_S4000x384_S384x128_S4000x128_1_0_0_1_n_n.contr.Idx) :
    (dot_S4000x384_S384x128_S4000x128_1_0_0_1_n_n.lhsIdx i q 1).val = (q ⟨0, by decide⟩).val :=
  dot_S4000x384_S384x128_S4000x128_1_0_0_1_n_n.lhsIdx_val_of_single rfl i q
theorem dr0 (i : S4000x128.Idx) (q : dot_S4000x384_S384x128_S4000x128_1_0_0_1_n_n.contr.Idx) :
    (dot_S4000x384_S384x128_S4000x128_1_0_0_1_n_n.rhsIdx i q 0).val = (q ⟨0, by decide⟩).val :=
  dot_S4000x384_S384x128_S4000x128_1_0_0_1_n_n.rhsIdx_val_of_single rfl i q
theorem dr1 (i : S4000x128.Idx) (q : dot_S4000x384_S384x128_S4000x128_1_0_0_1_n_n.contr.Idx) :
    (dot_S4000x384_S384x128_S4000x128_1_0_0_1_n_n.rhsIdx i q 1).val = (i 1).val := by
  unfold DotDims.rhsIdx
  rw [dif_neg (show ¬(1 : Fin S384x128.rank) ∈ dot_S4000x384_S384x128_S4000x128_1_0_0_1_n_n.rhsBatch by decide), dif_pos (show (1 : Fin S384x128.rank) ∈ dot_S4000x384_S384x128_S4000x128_1_0_0_1_n_n.rhsNonContracting by decide)]
  rfl

/-- The body's arithmetic on one block, at entry (p, q) of the block: the plain contraction sum. -/
theorem pay_apply (x0 : FVec Ideal S4000x384 .bf16) (x1 : FVec Ideal S384x128 .bf16) (p : Fin 4000) (q : Fin 128) :
    k3_pay1 x0 x1 (ix2 p q) = ∑ j : Fin 384, x0 (ix2 p j) * x1 (ix2 j q) := by
  unfold k3_pay1
  simp only [shapeCast_self]
  exact PlainDot.matmul_zero_apply dot_S4000x384_S384x128_S4000x128_1_0_0_1_n_n none rfl rfl dl0 dl1 dr0 dr1 x0 x1 p q

/-- The whole product: entry (e, q) is the sum over j of lhs(e, j) · rhs(j, q). -/
def G (a : FVec Ideal S500000x384 .bf16) (w : FVec Ideal S384x128 .bf16) : FVec Ideal S500000x128 .bf16 :=
  fun i => (∑ j : Fin 384, a (ix2 (i 0) j) * w (ix2 j (i 1)) : EReal)

/-- The index maps over the grid: the row windows sit at block row t, the weight window at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole product. -/
theorem flushed_eq (c : Dev nD) (t : Fin cfg3.N) :
    (dat3 V c).flushed 2 t = ((cfg3.win 2).blk t).view.read (Elt Ideal)
      (G (V c main_v85 : S500000x384.Idx → Elt Ideal .bf16) (V c main_v86 : S384x128.Idx → Elt Ideal .bf16)) := by
  show (cfg3.win 2).cut (grid3.coords t) ((dat3 V c).after 2 t) = _
  rw [after3_2]
  unfold out3_2
  rw [View.canon_unit_zero hz]
  simp only [View.ld_unit_zero (S := S4000x384) hz, View.ld_unit_zero (S := S384x128) hz]
  obtain ⟨e0, e1, e2, e3, e4, e5⟩ := idx_facts t
  funext y
  obtain ⟨p, q, rfl⟩ : ∃ (p : Fin 4000) (q : Fin 128), y = ix2 p q := ⟨y 0, y 1, eq_ix2 y⟩
  refine (pay_apply (iblk3 V c 0 t) (iblk3 V c 1 t) p q).trans ?_
  have ha : ∀ j : Fin 384, (iblk3 V c 0 t : S4000x384.Idx → Elt Ideal .bf16) (ix2 p j)
      = (V c main_v85 : S500000x384.Idx → Elt Ideal .bf16) (ix2 ((((cfg3.win 2).blk t).view.emb (ix2 p q)) 0) j) := by
    intro j
    show (V c main_v85 : S500000x384.Idx → Elt Ideal .bf16) (((cfg3.win 0).blk t).view.emb (ix2 p j)) = _
    refine congrArg _ (funext fun a => Fin.ext ?_)
    match a with
    | ⟨0, _⟩ => show win3_0.index t (0 : Fin 2) * 4000 + 1 * p.val = win3_2.index t (0 : Fin 2) * 4000 + 1 * p.val; omega
    | ⟨1, _⟩ => show win3_0.index t (1 : Fin 2) * 384 + 1 * j.val = j.val; omega
  have hw : ∀ j : Fin 384, (iblk3 V c 1 t : S384x128.Idx → Elt Ideal .bf16) (ix2 j q)
      = (V c main_v86 : S384x128.Idx → Elt Ideal .bf16) (ix2 j ((((cfg3.win 2).blk t).view.emb (ix2 p q)) 1)) := by
    intro j
    show (V c main_v86 : S384x128.Idx → Elt Ideal .bf16) (((cfg3.win 1).blk t).view.emb (ix2 j q)) = _
    refine congrArg _ (funext fun a => Fin.ext ?_)
    match a with
    | ⟨0, _⟩ => show win3_1.index t (0 : Fin 2) * 384 + 1 * j.val = j.val; omega
    | ⟨1, _⟩ => show win3_1.index t (1 : Fin 2) * 128 + 1 * q.val = win3_2.index t (1 : Fin 2) * 128 + 1 * q.val; omega
  rw [View.read_apply]
  unfold G
  exact Finset.sum_congr rfl fun j _ => congrArg₂ (fun x y : EReal => x * y) (ha j) (hw j)

/-- An index of the output is in point t's block iff its row is among the block's 4000 rows. -/
theorem mem_blk (t : Fin cfg3.N) (i : S500000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v87).slice (win3_2.rect t)).set ↔ _
  rw [View.set_slice_whole, Rect.mem_set_unit]
  exact Iff.rfl

/-- Row r lies in block r / 4000. -/
theorem cover (i : S500000x128.Idx) : ∃ t : Fin cfg3.N, (cfg3.win 2).flush t = true ∧ i ∈ ((cfg3.win 2).blk t).view.set := by
  have h0 : (i 0).val < 500000 := (i 0).isLt
  have h1 : (i 1).val < 128 := (i 1).isLt
  have hN : cfg3.N = 125 := N_3
  refine ⟨⟨(i 0).val / 4000, by rw [hN]; omega⟩, flush3_2 _, ?_⟩
  rw [mem_blk]
  obtain ⟨e0, e1, e2, e3, e4, e5⟩ := idx_facts ⟨(i 0).val / 4000, by rw [hN]; omega⟩
  intro a
  match a with
  | ⟨0, _⟩ =>
    show win3_2.index ⟨(i 0).val / 4000, _⟩ (0 : Fin 2) * 4000 ≤ (i 0).val ∧ (i 0).val < win3_2.index ⟨(i 0).val / 4000, _⟩ (0 : Fin 2) * 4000 + 4000
    rw [e4]; show (i 0).val / 4000 * 4000 ≤ (i 0).val ∧ (i 0).val < (i 0).val / 4000 * 4000 + 4000; omega
  | ⟨1, _⟩ =>
    show win3_2.index ⟨(i 0).val / 4000, _⟩ (1 : Fin 2) * 128 ≤ (i 1).val ∧ (i 1).val < win3_2.index ⟨(i 0).val / 4000, _⟩ (1 : Fin 2) * 128 + 128
    rw [e5]; omega

/-- The output array after the launch is the whole product of the arrays the launch found. -/
theorem final (c : Dev nD) : (dat3 V c).arrAt 2 cfg3.N
    = G (V c main_v85 : S500000x384.Idx → Elt Ideal .bf16) (V c main_v86 : S384x128.Idx → Elt Ideal .bf16) :=
  (dat3 V c).arrAt_eq_of_cover 2 _ (fun t _ => flushed_eq V c t) cover

end Cert.KernelIdeal.Edge3

end
-- ==== Proof.LibRowTake.lean ====
/-
  Row lookups and row accumulations with one integer index per row, read at an index.

  `x[idx]` for a table `x : [N]` or `x : [N, C]` and an index column `idx : [R, 1]` lowers to a gather whose start
  index is the column's entry, read signed and clamped into `[0, N - 1]`; the accumulation `.at[idx].add(u)` of
  rows `u : [R, C]` into `[N, C]` lowers to a scatter whose start index is the column's entry, read signed and NOT
  clamped: a row whose index falls outside `[0, N)` is dropped.  The lemmas below say which table element a result
  element reads, and which row an update row lands in.
-/
import Idealize.ShloMosaic.Lib.ValueIdx

noncomputable section

namespace Idealize.ShloMosaic.RowTake

open Idealize.ShloMosaic Idealize.ShloMosaic.ValueIdx

/-- A signed integer clamped into the rows `[0, N - 1]` of a table with `N > 0` rows. -/
def clampRow (N : Nat) (hN : 0 < N) (v : Int) : Fin N := ⟨min v.toNat (N - 1), by omega⟩

/-- An integer that already is a row is its own clamp. -/
theorem clampRow_of_eq {N : Nat} (hN : 0 < N) (v : Int) (r : Fin N) (h : v = (r.val : Int)) : clampRow N hN v = r := by
  refine Fin.ext ?_
  show min v.toNat (N - 1) = r.val
  have := r.isLt
  subst h
  rw [Int.toNat_natCast]
  omega

/-! ## A flat table `[N]` looked up at a column `[R, 1]` of indices -/

/-- The dimension numbers of `x[idx]` for `x : [N]`, `idx : [R, 1]`, result `[R]`. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `e` reads the table at the clamp of the column's entry `e`. -/
theorem flat_operandIdx {N R w : Nat} (hN : 0 < N)
    (wf : GatherDims.WF ⟨1, ![N]⟩ ⟨2, ![R, 1]⟩ ⟨1, ![R]⟩ [] [0] [] [0] [] 1 ![1])
    (idx : IVec ⟨2, ![R, 1]⟩ w) (e : Fin R) :
    (flatDims N R wf).operandIdx (ix1 e) idx = ix1 (clampRow N hN (idx (ix2 e (0 : Fin 1))).toInt) := by
  funext a
  obtain rfl : a = 0 := Subsingleton.elim _ _
  refine Fin.ext ?_
  show (flatDims N R wf).start (ix1 e) idx 0 + (flatDims N R wf).batchCoord (ix1 e) 0
    + (flatDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 e) ⟨List.idxOf (0 : Fin 1) (flatDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A table of rows `[N, C]` looked up at a column `[R, 1]` of indices -/

/-- The dimension numbers of `x[idx]` for `x : [N, C]`, `idx : [R, 1]`, result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- On the row axis the operand index is the clamp of the column's entry. -/
theorem row_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (0 : Fin 2)).val = (clampRow N hN (idx (ix2 e (0 : Fin 1))).toInt).val := by
  show (rowDims N C R wf).start (ix2 e c) idx (0 : Fin 2) + (rowDims N C R wf).batchCoord (ix2 e c) (0 : Fin 2)
    + (rowDims N C R wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C R wf).startIndexMap from List.mem_singleton.mpr rfl)]
  have hsi : (rowDims N C R wf).siIdx (ix2 e c) ⟨List.idxOf (0 : Fin 2) (rowDims N C R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the lane axis the operand index is the result's lane. -/
theorem row_operandIdx_lane {N C R w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (1 : Fin 2)).val = c.val := by
  show (rowDims N C R wf).start (ix2 e c) idx (1 : Fin 2) + (rowDims N C R wf).batchCoord (ix2 e c) (1 : Fin 2)
    + (rowDims N C R wf).offCoord (ix2 e c) (1 : Fin 2) = _
  have h10 : (1 : Fin 2) ∉ ([0] : List (Fin 2)) := by decide
  have hs : (rowDims N C R wf).start (ix2 e c) idx (1 : Fin 2) = 0 := by
    unfold GatherDims.start
    rw [dif_neg (show (1 : Fin 2) ∉ (rowDims N C R wf).startIndexMap from h10)]
  have ho : (rowDims N C R wf).offCoord (ix2 e c) (1 : Fin 2) = c.val := by
    unfold GatherDims.offCoord
    rw [dif_pos ((GatherDims.mem_sKept _ _).mpr ⟨h10, List.not_mem_nil⟩)]
    rfl
  rw [GatherDims.batchCoord_eq_zero _ _ _ List.not_mem_nil, hs, ho]; omega

/-- Result element `(e, c)` reads the table's row at the clamp of the column's entry `e`, in lane `c`. -/
theorem row_operandIdx {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowDims N C R wf).operandIdx (ix2 e c) idx = ix2 (clampRow N hN (idx (ix2 e (0 : Fin 1))).toInt) c := by
  funext a
  refine Fin.ext ?_
  match a with
  | ⟨0, _⟩ => exact row_operandIdx_row hN wf idx e c
  | ⟨1, _⟩ => exact row_operandIdx_lane wf idx e c

/-! ## Rows `[R, C]` accumulated into a table `[N, C]` at a column `[R, 1]` of indices -/

/-- The dimension numbers of `x.at[idx].add(u)` for `x : [N, C]`, `idx : [R, 1]`, `u : [R, C]`. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update element `(e, c)` that lands on table element `i` has the column's entry `e`, read signed, equal to
    `i`'s row: the row index is not clamped, and a row outside the table lands nowhere. -/
theorem rowScatter_row_of_some {N C R w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx)
    (h : (rowScatterDims N C R wf).resultIdx? (ix2 e c) idx = some i) :
    (idx (ix2 e (0 : Fin 1))).toInt = ((i 0).val : Int) := by
  have hs : (rowScatterDims N C R wf).start (ix2 e c) idx (0 : Fin 2) = (idx (ix2 e (0 : Fin 1))).toInt := by
    unfold ScatterDims.start
    rw [dif_pos (show (0 : Fin 2) ∈ (rowScatterDims N C R wf).scatterDimsToOperandDims from List.mem_singleton.mpr rfl)]
    have hsi : (rowScatterDims N C R wf).siIdx (ix2 e c) ⟨List.idxOf (0 : Fin 2) (rowScatterDims N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N C R wf).window (ix2 e c) (0 : Fin 2) = 0 := by
    unfold ScatterDims.window
    rw [dif_neg (show (0 : Fin 2) ∉ (rowScatterDims N C R wf).sKept from
      (by decide : (0 : Fin 2) ∉ (List.finRange 2).filter (fun a => a ∉ ([0] : List (Fin 2)))))]
  unfold ScatterDims.resultIdx? at h
  split at h
  · rename_i hin
    have h0 := congrArg (fun f => (f (0 : Fin 2)).val) (Option.some.inj h)
    have hb := hin (0 : Fin 2)
    rw [hs, hw] at hb
    simp only [hs, hw] at h0
    have h0' : ((idx (ix2 e (0 : Fin 1))).toInt + ((0 : Nat) : Int)).toNat = (i 0).val := h0
    omega
  · exact absurd h (by simp)

end Idealize.ShloMosaic.RowTake

end
-- ==== Proof.LibScatterSum.lean ====
/-
  Accumulating scatters on the extended reals: what does not depend on the updates that land nowhere, moving a summand
  of the operand out of the scatter, counting, and where a flat update lands.

  On the extended reals an accumulating scatter leaves at element `i` the operand's element plus the sum of the updates
  whose result index is `i`; an update whose index falls outside the operand lands nowhere.  Addition of extended
  reals is commutative and associative (also at the infinities), which is all these facts use.
-/
import Idealize.ShloMosaic.Lib.ValueIdx
import Idealize.ShloMosaic.PureOps.Ideal.Laws

noncomputable section

namespace Idealize.ShloMosaic.ScatterSum

open Idealize.ShloMosaic Idealize.ShloMosaic.ValueIdx

variable {s si su : Shape} {w : Nat} {φ : FTy}

/-- Two update arrays that agree on every update that lands somewhere scatter to the same array. -/
theorem scatterAdd_congr (d : ScatterDims s si su) (x : FVec Ideal s φ) (idx : IVec si w) (u u' : FVec Ideal su φ)
    (h : ∀ j i, d.resultIdx? j idx = some i → u j = u' j) :
    Host.scatterAdd d x idx u = Host.scatterAdd d x idx u' := by
  funext i
  unfold Host.scatterAdd
  simp only [Ideal.hostScatterAdd_def]
  unfold Ideal.hostScatterAdd
  refine congrArg (x i + ·) (Finset.sum_congr rfl fun j hj => h j i (Finset.mem_filter.mp hj).2)

/-- A summand of the operand moves out of the scatter. -/
theorem scatterAdd_add (d : ScatterDims s si su) (a b : FVec Ideal s φ) (idx : IVec si w) (u : FVec Ideal su φ) :
    Host.scatterAdd d (fun i => a i + b i) idx u = fun i => a i + Host.scatterAdd d b idx u i := by
  funext i
  unfold Host.scatterAdd
  simp only [Ideal.hostScatterAdd_def]
  unfold Ideal.hostScatterAdd
  exact add_assoc _ _ _

/-- Counting: ones scattered onto zeros leave a positive number wherever at least one update lands. -/
theorem scatterAdd_ones_pos (d : ScatterDims s si su) (x : FVec Ideal s φ) (idx : IVec si w) (u : FVec Ideal su φ)
    (i : s.Idx) (hx : x i = 0) (hu : ∀ j, u j = 1) (j0 : su.Idx) (hj0 : d.resultIdx? j0 idx = some i) :
    0 < Host.scatterAdd d x idx u i := by
  unfold Host.scatterAdd
  simp only [Ideal.hostScatterAdd_def]
  unfold Ideal.hostScatterAdd
  rw [hx, zero_add, Finset.sum_congr rfl (fun j _ => hu j)]
  refine lt_of_lt_of_le (zero_lt_one (α := EReal)) ?_
  exact Finset.single_le_sum (f := fun _ => (1 : EReal)) (fun _ _ => zero_le_one)
    (Finset.mem_filter.mpr ⟨Finset.mem_univ j0, hj0⟩)

/-! ## Values `[R]` accumulated into a flat table `[N]` at a column `[R, 1]` of indices -/

/-- The dimension numbers of `x.at[idx].add(u)` for `x : [N]`, `idx : [R, 1]`, `u : [R]`. -/
abbrev flatScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `e` whose column entry, read signed, is the row `n` of the table lands on element `n`. -/
theorem flatScatter_some_of_row {N R w : Nat}
    (wf : ScatterDims.WF ⟨1, ![N]⟩ ⟨2, ![R, 1]⟩ ⟨1, ![R]⟩ [] [0] [0] 1)
    (idx : IVec ⟨2, ![R, 1]⟩ w) (e : Fin R) (n : Fin N)
    (h : (idx (ix2 e (0 : Fin 1))).toInt = (n.val : Int)) :
    (flatScatterDims N R wf).resultIdx? (ix1 e) idx = some (ix1 n) := by
  have hs : (flatScatterDims N R wf).start (ix1 e) idx (0 : Fin 1) = (idx (ix2 e (0 : Fin 1))).toInt := by
    unfold ScatterDims.start
    rw [dif_pos (show (0 : Fin 1) ∈ (flatScatterDims N R wf).scatterDimsToOperandDims from List.mem_singleton.mpr rfl)]
    have hsi : (flatScatterDims N R wf).siIdx (ix1 e) ⟨List.idxOf (0 : Fin 1) (flatScatterDims N R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (flatScatterDims N R wf).window (ix1 e) (0 : Fin 1) = 0 := by
    unfold ScatterDims.window
    rw [dif_neg (show (0 : Fin 1) ∉ (flatScatterDims N R wf).sKept from
      (by decide : (0 : Fin 1) ∉ (List.finRange 1).filter (fun a => a ∉ ([0] : List (Fin 1)))))]
  have hn := n.isLt
  unfold ScatterDims.resultIdx?
  have hin : ∀ a : Fin 1, 0 ≤ (flatScatterDims N R wf).start (ix1 e) idx a + ((flatScatterDims N R wf).window (ix1 e) a : Int)
      ∧ (flatScatterDims N R wf).start (ix1 e) idx a + ((flatScatterDims N R wf).window (ix1 e) a : Int) < ((⟨1, ![N]⟩ : Shape).size a : Int) := by
    intro a
    obtain rfl : a = 0 := Subsingleton.elim _ _
    rw [hs, hw, h]
    show (0 : Int) ≤ (n.val : Int) + ((0 : Nat) : Int) ∧ (n.val : Int) + ((0 : Nat) : Int) < (N : Int)
    omega
  rw [dif_pos hin]
  refine congrArg some (funext fun a => Fin.ext ?_)
  obtain rfl : a = 0 := Subsingleton.elim _ _
  show ((flatScatterDims N R wf).start (ix1 e) idx 0 + ((flatScatterDims N R wf).window (ix1 e) 0 : Int)).toNat = n.val
  rw [hs, hw, h]
  omega

end Idealize.ShloMosaic.ScatterSum

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibSelfLoopSum.lean ====
/-
  A degree-normalised neighbourhood sum with a self-loop, in its two arrangements.

  Node `n` has degree `deg n = (number of messages arriving at n) + 1` and weight `a = deg^(-1/2)`.  One
  arrangement scales every arriving message `v j` by the product of its source's weight `w j` and its
  destination's weight, sums, and adds the node's own value times `1 / deg`; the other scales messages by the
  source's weight only, adds the node's own value scaled by its weight, and multiplies the whole by the
  destination's weight afterwards.  On the extended reals the two agree for summands of any kind, infinite ones
  included, because the weight is a nonnegative real: such a factor distributes over sums, and
  `deg^(-1/2) · deg^(-1/2) = 1 / deg` for a real `deg > 0`.
-/
import Idealize.ShloMosaic.PureOps.Ideal
import Idealize.ShloMosaic.PureOps.Ideal.Laws

noncomputable section

namespace Idealize.ShloMosaic.SelfLoopSum

open Idealize.ShloMosaic

/-- The binary32 word `0x3F800000` denotes the real `1`. -/
theorem ofBits_one_f32 : Ideal.ofBits .f32 0x3F800000#32 = 1 := by
  simp [Ideal.ofBits, Ideal.ieee, -EReal.coe_mul]
  norm_num

/-- A sum of ones is the number of its terms. -/
theorem sum_ones {ι : Type*} (s : Finset ι) : ∑ _j ∈ s, (1 : EReal) = ((s.card : ℝ) : EReal) := by
  classical
  induction s using Finset.induction_on with
  | empty => simp
  | insert j s hj ih =>
    rw [Finset.sum_insert hj, ih, Finset.card_insert_of_notMem hj]
    push_cast
    rw [add_comm]

/-- Counting arrivals from zero and adding one gives a real degree, at least one. -/
theorem degree_eq {ι : Type*} (s : Finset ι) :
    (0 + ∑ _j ∈ s, (1 : EReal)) + 1 = (((s.card : ℝ) + 1 : ℝ) : EReal) := by
  rw [zero_add, sum_ones]; rfl

/-- At a positive real `r` the weight `r^(-1/2)` is a nonnegative real, and its square is `1 / r`. -/
theorem rsqrt_pos (r : ℝ) (hr : 0 < r) :
    0 ≤ Ideal.rsqrt (r : EReal) ∧ Ideal.rsqrt (r : EReal) ≠ ⊤
      ∧ Ideal.rsqrt (r : EReal) * Ideal.rsqrt (r : EReal) = Ideal.div 1 (r : EReal) := by
  have h2 : ¬ r < 0 := not_lt.mpr hr.le
  have h3 : r ≠ 0 := hr.ne'
  have e : Ideal.rsqrt (r : EReal) = (((Real.sqrt r)⁻¹ : ℝ) : EReal) := by
    rw [Ideal.rsqrt_coe, if_neg h2, if_neg h3]
  rw [e]
  refine ⟨?_, EReal.coe_ne_top _, ?_⟩
  · exact_mod_cast inv_nonneg.mpr (Real.sqrt_nonneg r)
  · rw [Ideal.div_coe h3, one_mul, ← EReal.coe_mul, ← mul_inv, Real.mul_self_sqrt hr.le, one_div]

/-- The two arrangements agree: `a` the destination's weight (nonnegative, finite), `v j` message `j`'s
    payload, `w j` its source's weight, `wd j` its destination's weight (which is `a` for every message
    of this destination), `x` the node's own value, `q = a · a` the self-loop's weight, `b` the bias. -/
theorem scaled_eq {ι : Type*} (s : Finset ι) (a : EReal) (h0 : 0 ≤ a) (ht : a ≠ ⊤) (v w wd : ι → EReal)
    (hwd : ∀ j ∈ s, wd j = a) (x q b : EReal) (hq : a * a = q) :
    a * ((0 + ∑ j ∈ s, v j * w j) + x * a) + b = ((0 + ∑ j ∈ s, v j * (w j * wd j)) + x * q) + b := by
  classical
  have hsum : a * ∑ j ∈ s, v j * w j = ∑ j ∈ s, v j * (w j * wd j) := by
    induction s using Finset.induction_on with
    | empty => simp
    | insert j s hj ih =>
      rw [Finset.sum_insert hj, Finset.sum_insert hj, EReal.left_distrib_of_nonneg_of_ne_top h0 ht,
        ih (fun k hk => hwd k (Finset.mem_insert_of_mem hk)), hwd j (Finset.mem_insert_self j s),
        mul_comm a (v j * w j), mul_assoc]
  rw [zero_add, zero_add, EReal.left_distrib_of_nonneg_of_ne_top h0 ht, hsum, mul_left_comm a x a, hq]

end Idealize.ShloMosaic.SelfLoopSum

end
-- ==== Proof.EdgeNorm.lean ====
/-
  One edge type's messages and their accumulation, in the kernel's and in the reference's arrangement.

  For one edge type with destination indices `d : [E]` and per-edge projected rows `T : [E, C]`:
  `counts d` scatters a one per edge onto zeros, at the destination read signed (an edge whose destination is outside
  the table is dropped there);  the edge's weight is the reciprocal of the count at its destination, read with Python's
  wrap of a negative index and clamped into the table;  the message is weight · row, and the messages are accumulated
  onto a base array at the wrapped destinations.  The kernel guards the reciprocal, `where(count > 0, 1 / count, 0)`,
  before looking it up; the reference divides after looking the count up.  When every destination is a row of the table,
  edge `e` itself was counted at its destination, so the count there is positive, the guard does not bind, and the
  two weights are the same extended real.  Moving a summand of the base array out of the accumulation is associativity
  of the sum.  Nothing here needs finiteness.
-/
import Idealize.ShloMosaic.Lib.ValueIdx
import Idealize.ShloMosaic.Lib.ValueLayout
import Idealize.ShloMosaic.Lib.Pipeline.Value
import Idealize.ShloMosaic.PureOps.Ideal.Laws
import proofs.«161958_j3049426780188_2_alg».proof.Proof.LibRowTake
import proofs.«161958_j3049426780188_2_alg».proof.Proof.LibScatterSum
import proofs.«161958_j3049426780188_2_alg».proof.Proof.LibKeepdims
import proofs.«161958_j3049426780188_2_alg».proof.Proof.LibSelfLoopSum

noncomputable section

namespace Cert.Hgnn

open Idealize.ShloMosaic Idealize.ShloMosaic.ValueIdx

abbrev S0 : Shape := ⟨0, ![]⟩
abbrev SE : Shape := ⟨1, ![500000]⟩
abbrev SE1 : Shape := ⟨2, ![500000, 1]⟩
abbrev SN : Shape := ⟨1, ![100000]⟩
abbrev SEC : Shape := ⟨2, ![500000, 128]⟩
abbrev SNC : Shape := ⟨2, ![100000, 128]⟩

theorem bE : S0.BroadcastsInDim SE (![] : Fin 0 → Fin SE.rank) := by decide
theorem bN : S0.BroadcastsInDim SN (![] : Fin 0 → Fin SN.rank) := by decide
theorem bE1 : SE.BroadcastsInDim SE1 (![0] : Fin 1 → Fin SE1.rank) := by decide
theorem bEC : SE1.BroadcastsInDim SEC (![0, 1] : Fin 2 → Fin SEC.rank) := by decide
theorem scE : SE.ShapeCasts SE1 := by decide
theorem wfFlat : ScatterDims.WF SN SE1 SE [] [0] [0] 1 := by decide
theorem wfRow : ScatterDims.WF SNC SE1 SEC [1] [0] [0] 1 := by decide
theorem wfTake : GatherDims.WF SN SE1 SE [] [0] [] [0] [] 1 ![1] := by decide
theorem hbf : FTy.bits .bf16 < FTy.bits .f32 := by decide

abbrev dFlat : ScatterDims SN SE1 SE := ScatterSum.flatScatterDims 100000 500000 wfFlat
abbrev dRow : ScatterDims SNC SE1 SEC := RowTake.rowScatterDims 100000 128 500000 wfRow
abbrev dTake : GatherDims SN SE1 SE := RowTake.flatDims 100000 500000 wfTake

/-! ## The pieces, as the two programs spell them -/

/-- Python's wrap of a negative index: `d + N` where `d < 0`, else `d`. -/
def wrapIdx (d : IVec SE 32) : IVec SE 32 :=
  select (cmpi .slt d (broadcastInDim SE ![] bE (constantI S0 32 0#32)))
    (addi d (broadcastInDim SE ![] bE (constantI S0 32 100000#32))) d
/-- An index vector as a column of start indices. -/
def col (d : IVec SE 32) : IVec SE1 32 := broadcastInDim SE1 ![0] bE1 d
def zerosN : FVec Ideal SN .f32 := broadcastInDim SN ![] bN (constant (F := Ideal) S0 .f32 0x00000000#32)
def onesN : FVec Ideal SN .f32 := broadcastInDim SN ![] bN (constant (F := Ideal) S0 .f32 0x3F800000#32)
def onesE : FVec Ideal SE .f32 := broadcastInDim SE ![] bE (constant (F := Ideal) S0 .f32 0x3F800000#32)
/-- How many edges arrive at each node (destinations read signed, unwrapped; outside the table: dropped). -/
def counts (d : IVec SE 32) : FVec Ideal SN .f32 := Host.scatterAdd dFlat zerosN (col d) onesE
/-- The kernel's guarded reciprocal of the counts. -/
def invK (d : IVec SE 32) : FVec Ideal SN .f32 :=
  select (cmpf .ogt (counts d) zerosN) (Host.divf onesN (counts d)) zerosN
/-- The kernel's weights, one per edge, as a column. -/
def normK (d : IVec SE 32) : FVec Ideal SE1 .f32 :=
  shapeCast SE1 (Host.gather dTake (invK d) (col (wrapIdx d))) scE
/-- The reference's weights, one per edge, as a column. -/
def normR (d : IVec SE 32) : FVec Ideal SE1 .f32 :=
  broadcastInDim SE1 ![0] bE1 (Host.divf onesE (Host.gather dTake (counts d) (col (wrapIdx d))))
/-- The kernel's messages: weight · row, the rows widened from the launch's output format. -/
def updK (d : IVec SE 32) (T : FVec Ideal SEC .bf16) : FVec Ideal SEC .f32 :=
  mulf (broadcastInDim SEC ![0, 1] bEC (normK d)) (extf .f32 T hbf)
/-- The reference's messages. -/
def updR (d : IVec SE 32) (T : FVec Ideal SEC .f32) : FVec Ideal SEC .f32 :=
  mulf (broadcastInDim SEC ![0, 1] bEC (normR d)) T
/-- One edge type accumulated onto a base array, the kernel's way. -/
def stepK (base : FVec Ideal SNC .f32) (d : IVec SE 32) (T : FVec Ideal SEC .bf16) : FVec Ideal SNC .f32 :=
  Host.scatterAdd dRow base (col (wrapIdx d)) (updK d T)
/-- One edge type accumulated onto a base array, the reference's way. -/
def stepR (base : FVec Ideal SNC .f32) (d : IVec SE 32) (T : FVec Ideal SEC .f32) : FVec Ideal SNC .f32 :=
  Host.scatterAdd dRow base (col (wrapIdx d)) (updR d T)

/-! ## Reading the layout operations at an index -/

theorem bcast0_apply {α : Type} {t : Shape} (h : S0.BroadcastsInDim t (![] : Fin 0 → Fin t.rank)) (x : S0.Idx → α) (j : t.Idx) :
    broadcastInDim t ![] h x j = x (fun a => a.elim0) :=
  broadcastInDim_apply _ h x j (fun a => a.elim0) (fun a => a.elim0)

theorem col_apply {α : Type} (x : SE.Idx → α) (e : Fin 500000) (u : Fin 1) :
    broadcastInDim SE1 ![0] bE1 x (ix2 e u) = x (ix1 e) :=
  broadcastInDim_apply _ bE1 x (ix2 e u) (ix1 e) (fun a => match a with
    | ⟨0, _⟩ => by show e.val = if (500000 : Nat) = 1 then 0 else e.val; rw [if_neg (by decide)])

theorem lanes_apply {α : Type} (x : SE1.Idx → α) (e : Fin 500000) (q : Fin 128) :
    broadcastInDim SEC ![0, 1] bEC x (ix2 e q) = x (ix2 e (0 : Fin 1)) :=
  broadcastInDim_apply _ bEC x (ix2 e q) (ix2 e (0 : Fin 1)) (fun a => match a with
    | ⟨0, _⟩ => by show e.val = if (500000 : Nat) = 1 then 0 else e.val; rw [if_neg (by decide)]
    | ⟨1, _⟩ => by show 0 = if (1 : Nat) = 1 then 0 else q.val; rw [if_pos rfl])

theorem gather_eq {α : Type} {s si t : Shape} {w : Nat} (d : GatherDims s si t) (x : s.Idx → α) (idx : IVec si w) (y : t.Idx) :
    Host.gather d x idx y = x (d.operandIdx y idx) := by
  unfold Host.gather
  rfl

theorem hdivf_apply {s : Shape} {φ : FTy} (a b : FVec Ideal s φ) (i : s.Idx) : Host.divf a b i = Ideal.div (a i) (b i) := rfl

/-! ## A destination that is a row of the table -/

/-- A signed-nonnegative word is not below zero, so the wrap leaves it alone. -/
theorem wrap_apply (d : IVec SE 32) (e : Fin 500000) (h : 0 ≤ (d (ix1 e)).toInt) : wrapIdx d (ix1 e) = d (ix1 e) := by
  unfold wrapIdx
  rw [select_apply]
  have hc : cmpi .slt d (broadcastInDim SE ![] bE (constantI S0 32 0#32)) (ix1 e) = 0#1 := by
    show IntOp.cmpi .slt (d (ix1 e)) (broadcastInDim SE ![] bE (constantI S0 32 0#32) (ix1 e)) = 0#1
    rw [bcast0_apply]
    show BitVec.ofBool (decide ((d (ix1 e)).toInt < (0#32 : BitVec 32).toInt)) = 0#1
    rw [show (0#32 : BitVec 32).toInt = 0 from by decide, decide_eq_false (not_lt.mpr h)]
    rfl
  rw [hc]
  rfl

/-- The count at the destination of an edge whose destination is a row of the table is positive. -/
theorem counts_pos (d : IVec SE 32) (e : Fin 500000) (n : Fin 100000) (hn : (d (ix1 e)).toInt = (n.val : Int)) :
    0 < counts d (ix1 n) := by
  unfold counts
  refine ScatterSum.scatterAdd_ones_pos dFlat zerosN (col d) onesE (ix1 n) ?_ ?_ (ix1 e) ?_
  · unfold zerosN
    rw [bcast0_apply, constant_apply]
    exact Ideal.ofBits_zero_f32
  · intro j
    unfold onesE
    rw [bcast0_apply, constant_apply]
    exact SelfLoopSum.ofBits_one_f32
  · refine ScatterSum.flatScatter_some_of_row wfFlat (col d) e n ?_
    unfold col
    rw [col_apply]
    exact hn

/-- The two weights of an edge whose destination is a row of the table agree. -/
theorem norm_eq (d : IVec SE 32) (e : Fin 500000)
    (h0 : 0 ≤ (d (ix1 e)).toInt) (h1 : (d (ix1 e)).toInt < 100000) :
    normK d (ix2 e (0 : Fin 1)) = normR d (ix2 e (0 : Fin 1)) := by
  obtain ⟨n, hn⟩ : ∃ n : Fin 100000, (d (ix1 e)).toInt = (n.val : Int) :=
    ⟨⟨(d (ix1 e)).toInt.toNat, by omega⟩, by show _ = ((d (ix1 e)).toInt.toNat : Int); omega⟩
  have hidx : (col (wrapIdx d) (ix2 e (0 : Fin 1))).toInt = (n.val : Int) := by
    unfold col
    rw [col_apply, wrap_apply d e h0]
    exact hn
  have hop : dTake.operandIdx (ix1 e) (col (wrapIdx d)) = ix1 n := by
    rw [RowTake.flat_operandIdx (by decide : 0 < 100000) wfTake (col (wrapIdx d)) e,
      RowTake.clampRow_of_eq (by decide : 0 < 100000) _ n hidx]
  have hpos := counts_pos d e n hn
  have hz : zerosN (ix1 n) = 0 := by
    unfold zerosN
    rw [bcast0_apply, constant_apply]
    exact Ideal.ofBits_zero_f32
  have hone : onesN (ix1 n) = onesE (ix1 e) := by
    unfold onesN onesE
    rw [bcast0_apply, bcast0_apply]
  unfold normK normR
  rw [Keepdims.shapeCast_a_a1_apply, col_apply, gather_eq, hdivf_apply, gather_eq, hop]
  unfold invK
  rw [select_apply, cmpf_apply, hdivf_apply, hz, hone]
  generalize counts d (ix1 n) = v at hpos ⊢
  generalize onesE (ix1 e) = o
  show Scalar.select (BitVec.ofBool (decide ((0 : EReal) < v))) (Ideal.div o v) (0 : EReal) = Ideal.div o v
  rw [decide_eq_true hpos]
  rfl

/-- So the two programs' messages agree, entry by entry, when every destination is a row of the table. -/
theorem upd_eq (d : IVec SE 32) (TK : FVec Ideal SEC .bf16) (TR : FVec Ideal SEC .f32) (hT : ∀ i, TK i = TR i)
    (hd : ∀ e : Fin 500000, 0 ≤ (d (ix1 e)).toInt ∧ (d (ix1 e)).toInt < 100000) :
    updK d TK = updR d TR := by
  funext i
  obtain ⟨e, q, rfl⟩ : ∃ (e : Fin 500000) (q : Fin 128), i = ix2 e q := ⟨i 0, i 1, eq_ix2 i⟩
  unfold updK updR
  rw [mulf_apply, mulf_apply, lanes_apply, lanes_apply, extf_apply, norm_eq d e (hd e).1 (hd e).2, hT]

/-- One edge type accumulated onto `p + r` the kernel's way is `p` plus the edge type accumulated onto `r`
    the reference's way. -/
theorem step_eq (p baseK baseR : FVec Ideal SNC .f32) (hb : baseK = fun i => p i + baseR i)
    (d : IVec SE 32) (TK : FVec Ideal SEC .bf16) (TR : FVec Ideal SEC .f32) (hT : ∀ i, TK i = TR i)
    (hd : ∀ e : Fin 500000, 0 ≤ (d (ix1 e)).toInt ∧ (d (ix1 e)).toInt < 100000) :
    stepK baseK d TK = fun i => p i + stepR baseR d TR i := by
  unfold stepK stepR
  rw [hb, upd_eq d TK TR hT hd]
  exact ScatterSum.scatterAdd_add dRow p baseR (col (wrapIdx d)) (updR d TR)

end Cert.Hgnn

end
-- ==== Proof.KRead.lean ====
/-
  The idealized kernel's result array as one term of its argument arrays.

  Reading the run's fold backwards from the returned buffer: the result is the third edge type's messages accumulated
  onto the second's, onto the first's, onto the dense projection (launch 0's output); each edge type's rows are its
  launch's output (a whole matrix product of the gathered source rows with the edge type's weights), and every host
  operation between the launches is read off the stretch it stands in.  No launch and no host operation writes an
  argument array, so each is read back to the launch memory.
-/
import proofs.«161958_j3049426780188_2_alg».proof.Proof.KRun
import proofs.«161958_j3049426780188_2_alg».proof.Proof.KProj
import proofs.«161958_j3049426780188_2_alg».proof.Proof.KEdge1
import proofs.«161958_j3049426780188_2_alg».proof.Proof.KEdge2
import proofs.«161958_j3049426780188_2_alg».proof.Proof.KEdge3
import proofs.«161958_j3049426780188_2_alg».proof.Proof.EdgeNorm
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.Hgnn

variable (m : (ℓ : Loc nD τ sig) → Buf (Elt Ideal) ℓ) (ρ : Dev nD → PrngReg)

/-- Launch 0 reads the narrowed node features through an input window and leaves them as it found them. -/
theorem keep_x (c : Dev nD) : W2 m ρ c (Proc.devRef .tc main_v0) = W1 m ρ c (Proc.devRef .tc main_v0) :=
  ((W2_arr m ρ c 0).trans ((dat0 (V1 m ρ) c).arrAt_in 0 rfl cfg0.N)).trans (A_eq0 (V1 m ρ) c 0)

/-- Walks one buffer's contents back through the fold: a host stretch by its operations' results, a launch that does not
    write the buffer by leaving it alone. -/
macro "walk_back" : tactic =>
  `(tactic| repeat (first
      | (rw [W12_of_ne]; rotate_left; decide)
      | (rw [W8_of_ne]; rotate_left; decide)
      | (rw [W4_of_ne]; rotate_left; decide)
      | (rw [W2_of_ne]; rotate_left; decide)
      | rw [keep_x]
      | after_results_simp))

/-! ## The node features, narrowed, and the gathered source rows of each edge type -/

/-- The node features in the launches' input format (the identity on extended reals). -/
def xb (x : FVec Ideal S100000x128 .f32) : FVec Ideal S100000x128 .bf16 := truncf .bf16 x bitsLt_bf16_f32
def wct (wc : FVec Ideal S128x128 .f32) : FVec Ideal S128x128 .bf16 :=
  truncf .bf16 (transpose S128x128 [1, 0] wc transposes_S128x128_S128x128_1_0) bitsLt_bf16_f32
def brow (b : FVec Ideal S128 .f32) : FVec Ideal S1x128 .f32 := shapeCast S1x128 b shapeCasts_S128_S1x128
/-- Edge type 0's gathered source rows. -/
def gath0 (x : FVec Ideal S100000x128 .f32) (s : IVec S500000 32) : FVec Ideal S500000x128 .bf16 :=
  Host.gather gather_S100000x128_S500000x1_S500000x128_1_0_n_n_0_1_1128 (xb x)
    (broadcastInDim S500000x1 ![0] bcast_S500000_S500000x1_0
      (select (cmpi .slt s (broadcastInDim S500000 ![] bcast_S_S500000 (constantI S_ 32 0#32)))
        (addi s (broadcastInDim S500000 ![] bcast_S_S500000 (constantI S_ 32 100000#32))) s))
/-- Edge type 1's gathered source rows, two per edge side by side. -/
def gath1 (x : FVec Ideal S100000x128 .f32) (s : IVec S1000000 32) : FVec Ideal S500000x256 .bf16 :=
  shapeCast S500000x256 (Host.gather gather_S100000x128_S1000000x1_S1000000x128_1_0_n_n_0_1_1128 (xb x)
    (broadcastInDim S1000000x1 ![0] bcast_S1000000_S1000000x1_0
      (select (cmpi .slt s (broadcastInDim S1000000 ![] bcast_S_S1000000 (constantI S_ 32 0#32)))
        (addi s (broadcastInDim S1000000 ![] bcast_S_S1000000 (constantI S_ 32 100000#32))) s))) shapeCasts_S1000000x128_S500000x256
/-- Edge type 2's gathered source rows, three per edge side by side. -/
def gath2 (x : FVec Ideal S100000x128 .f32) (s : IVec S1500000 32) : FVec Ideal S500000x384 .bf16 :=
  shapeCast S500000x384 (Host.gather gather_S100000x128_S1500000x1_S1500000x128_1_0_n_n_0_1_1128 (xb x)
    (broadcastInDim S1500000x1 ![0] bcast_S1500000_S1500000x1_0
      (select (cmpi .slt s (broadcastInDim S1500000 ![] bcast_S_S1500000 (constantI S_ 32 0#32)))
        (addi s (broadcastInDim S1500000 ![] bcast_S_S1500000 (constantI S_ 32 100000#32))) s))) shapeCasts_S1500000x128_S500000x384
def wa0 (w : FVec Ideal S128x128 .f32) : FVec Ideal S128x128 .bf16 := truncf .bf16 w bitsLt_bf16_f32
def wa1 (w : FVec Ideal S256x128 .f32) : FVec Ideal S256x128 .bf16 := truncf .bf16 w bitsLt_bf16_f32
def wa2 (w : FVec Ideal S384x128 .f32) : FVec Ideal S384x128 .bf16 := truncf .bf16 w bitsLt_bf16_f32

/-- The result array as one term of the twelve argument arrays. -/
def valueOf (x : FVec Ideal S100000x128 .f32) (s0 d0 : IVec S500000 32) (s1 : IVec S1000000 32) (d1 : IVec S500000 32)
    (s2 : IVec S1500000 32) (d2 : IVec S500000 32) (w0 : FVec Ideal S128x128 .f32) (w1 : FVec Ideal S256x128 .f32)
    (w2 : FVec Ideal S384x128 .f32) (wc : FVec Ideal S128x128 .f32) (b : FVec Ideal S128 .f32) : FVec Ideal S100000x128 .f32 :=
  stepK (stepK (stepK (Proj.G (xb x) (wct wc) (brow b)) d0 (Edge1.G (gath0 x s0) (wa0 w0)))
      d1 (Edge2.G (gath1 x s1) (wa1 w1)))
    d2 (Edge3.G (gath2 x s2) (wa2 w2))

/-! ## What each launch finds and leaves -/

theorem in0_x (c : Dev nD) : V1 m ρ c main_v0 = xb (m ((c : Thread nD τ).loc main_arg0)) := by
  show StableHlo.after hostOps0 (W0 m ρ c) (Proc.devRef .tc main_v0) = _
  walk_back
  rfl
theorem in0_w (c : Dev nD) : V1 m ρ c main_v2 = wct (m ((c : Thread nD τ).loc main_arg10)) := by
  show StableHlo.after hostOps0 (W0 m ρ c) (Proc.devRef .tc main_v2) = _
  walk_back
  rfl
theorem in0_b (c : Dev nD) : V1 m ρ c main_v3 = brow (m ((c : Thread nD τ).loc main_arg11)) := by
  show StableHlo.after hostOps0 (W0 m ρ c) (Proc.devRef .tc main_v3) = _
  walk_back
  rfl

/-- Launch 0 leaves the dense projection. -/
theorem out0 (c : Dev nD) : W2 m ρ c (Proc.devRef .tc main_v4) = Proj.G (xb (m ((c : Thread nD τ).loc main_arg0))) (wct (m ((c : Thread nD τ).loc main_arg10))) (brow (m ((c : Thread nD τ).loc main_arg11))) := by
  refine ((W2_arr m ρ c 3).trans (Proj.final (V1 m ρ) c)).trans ?_
  rw [in0_x, in0_w, in0_b]

theorem in1_g (c : Dev nD) : V3 m ρ c main_v11 = gath0 (m ((c : Thread nD τ).loc main_arg0)) (m ((c : Thread nD τ).loc main_arg1)) := by
  show StableHlo.after hostOps1 (W2 m ρ c) (Proc.devRef .tc main_v11) = _
  walk_back
  rfl
theorem in1_w (c : Dev nD) : V3 m ρ c main_v12 = wa0 (m ((c : Thread nD τ).loc main_arg7)) := by
  show StableHlo.after hostOps1 (W2 m ρ c) (Proc.devRef .tc main_v12) = _
  walk_back
  rfl

/-- Launch 1 leaves edge type 0's projected rows. -/
theorem out1 (c : Dev nD) : W4 m ρ c (Proc.devRef .tc main_v13) = Edge1.G (gath0 (m ((c : Thread nD τ).loc main_arg0)) (m ((c : Thread nD τ).loc main_arg1))) (wa0 (m ((c : Thread nD τ).loc main_arg7))) := by
  refine ((W4_arr m ρ c 2).trans (Edge1.final (V3 m ρ) c)).trans ?_
  rw [in1_g, in1_w]

set_option maxHeartbeats 4000000 in
theorem in2_g (c : Dev nD) : V7 m ρ c main_v48 = gath1 (m ((c : Thread nD τ).loc main_arg0)) (m ((c : Thread nD τ).loc main_arg3)) := by
  show StableHlo.after hostOps2_2 (W6 m ρ c) (Proc.devRef .tc main_v48) = _
  walk_back
  rfl
set_option maxHeartbeats 4000000 in
theorem in2_w (c : Dev nD) : V7 m ρ c main_v49 = wa1 (m ((c : Thread nD τ).loc main_arg8)) := by
  show StableHlo.after hostOps2_2 (W6 m ρ c) (Proc.devRef .tc main_v49) = _
  walk_back
  rfl

/-- Launch 2 leaves edge type 1's projected rows. -/
theorem out2 (c : Dev nD) : W8 m ρ c (Proc.devRef .tc main_v50) = Edge2.G (gath1 (m ((c : Thread nD τ).loc main_arg0)) (m ((c : Thread nD τ).loc main_arg3))) (wa1 (m ((c : Thread nD τ).loc main_arg8))) := by
  refine ((W8_arr m ρ c 2).trans (Edge2.final (V7 m ρ) c)).trans ?_
  rw [in2_g, in2_w]

set_option maxHeartbeats 4000000 in
theorem in3_g (c : Dev nD) : V11 m ρ c main_v85 = gath2 (m ((c : Thread nD τ).loc main_arg0)) (m ((c : Thread nD τ).loc main_arg5)) := by
  show StableHlo.after hostOps3_2 (W10 m ρ c) (Proc.devRef .tc main_v85) = _
  walk_back
  rfl
set_option maxHeartbeats 4000000 in
theorem in3_w (c : Dev nD) : V11 m ρ c main_v86 = wa2 (m ((c : Thread nD τ).loc main_arg9)) := by
  show StableHlo.after hostOps3_2 (W10 m ρ c) (Proc.devRef .tc main_v86) = _
  walk_back
  rfl

/-- Launch 3 leaves edge type 2's projected rows. -/
theorem out3 (c : Dev nD) : W12 m ρ c (Proc.devRef .tc main_v87) = Edge3.G (gath2 (m ((c : Thread nD τ).loc main_arg0)) (m ((c : Thread nD τ).loc main_arg5))) (wa2 (m ((c : Thread nD τ).loc main_arg9))) := by
  refine ((W12_arr m ρ c 2).trans (Edge3.final (V11 m ρ) c)).trans ?_
  rw [in3_g, in3_w]

/-! ## The three accumulations -/

theorem dst0_at (c : Dev nD) : W4 m ρ c (Proc.devRef .tc main_arg2) = m ((c : Thread nD τ).loc main_arg2) := by
  walk_back
set_option maxHeartbeats 4000000 in
theorem dst1_at (c : Dev nD) : W8 m ρ c (Proc.devRef .tc main_arg4) = m ((c : Thread nD τ).loc main_arg4) := by
  walk_back
set_option maxHeartbeats 4000000 in
theorem dst2_at (c : Dev nD) : W12 m ρ c (Proc.devRef .tc main_arg6) = m ((c : Thread nD τ).loc main_arg6) := by
  walk_back
theorem proj_at (c : Dev nD) : W4 m ρ c (Proc.devRef .tc main_v4) = W2 m ρ c (Proc.devRef .tc main_v4) := by
  walk_back

/-- After edge type 0. -/
theorem acc0 (c : Dev nD) : W8 m ρ c (Proc.devRef .tc main_v40)
    = stepK (W4 m ρ c (Proc.devRef .tc main_v4)) (W4 m ρ c (Proc.devRef .tc main_arg2)) (W4 m ρ c (Proc.devRef .tc main_v13)) := by
  rw [W8_of_ne m ρ c main_v40 (by decide)]
  show StableHlo.after hostOps2_2 (W6 m ρ c) (Proc.devRef .tc main_v40) = _
  after_results_simp
  simp only [TRef.toBuf, TRef.ofBuf, cast_eq, id]
  rfl

/-- After edge type 1. -/
theorem acc1 (c : Dev nD) : W12 m ρ c (Proc.devRef .tc main_v77)
    = stepK (W8 m ρ c (Proc.devRef .tc main_v40)) (W8 m ρ c (Proc.devRef .tc main_arg4)) (W8 m ρ c (Proc.devRef .tc main_v50)) := by
  rw [W12_of_ne m ρ c main_v77 (by decide)]
  show StableHlo.after hostOps3_2 (W10 m ρ c) (Proc.devRef .tc main_v77) = _
  after_results_simp
  simp only [TRef.toBuf, TRef.ofBuf, cast_eq, id]
  rfl

/-- After edge type 2: the returned buffer. -/
theorem acc2 (c : Dev nD) : W15 m ρ c (Proc.devRef .tc main_v114)
    = stepK (W12 m ρ c (Proc.devRef .tc main_v77)) (W12 m ρ c (Proc.devRef .tc main_arg6)) (W12 m ρ c (Proc.devRef .tc main_v87)) := by
  show StableHlo.after hostOps4_2 (W14 m ρ c) (Proc.devRef .tc main_v114) = _
  after_results_simp
  simp only [TRef.toBuf, TRef.ofBuf, cast_eq, id]
  rfl

/-- The returned buffer holds that term of the launch memory's argument arrays. -/
theorem value_eq (c : Dev nD) : W15 m ρ c (Proc.devRef .tc main_v114)
    = valueOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [acc2, acc1, acc0, dst2_at, dst1_at, dst0_at, out3, out2, out1, proj_at, out0]
  rfl

end Cert.KernelIdeal.Whole

end
-- ==== Proof.RefSide.lean ====
/-
  The idealized reference's result array as one term of its argument arrays, in the vocabulary of the edge-type algebra.

  The reference gathers each edge type's source rows from the node features, multiplies them by the edge type's weights
  with the host's matrix product, weights each edge's row by the reciprocal of its destination's count, accumulates the
  three edge types onto zeros, and adds the result to the dense projection plus bias.
-/
import proofs.«161958_j3049426780188_2_alg».proof.Proof.Gen.ReferenceIdeal.Run
import proofs.«161958_j3049426780188_2_alg».proof.Proof.EdgeNorm

set_option maxRecDepth 16384

noncomputable section

namespace Cert.ReferenceIdeal.Whole

open Idealize.ShloMosaic Idealize.ShloMosaic.TcCoe Idealize.SL.Sem Idealize.ShloMosaic.StableHlo
open Cert.ReferenceIdeal Cert.ReferenceIdeal.Gen Cert.Hgnn

/-- Edge type 0's gathered source rows. -/
def gath0 (x : FVec Ideal S100000x128 .f32) (s : IVec S500000 32) : FVec Ideal S500000x128 .f32 :=
  Host.gather gather_S100000x128_S500000x1_S500000x128_1_0_n_n_0_1_1128 x
    (broadcastInDim S500000x1 ![0] bcast_S500000_S500000x1_0
      (select (cmpi .slt s (broadcastInDim S500000 ![] bcast_S_S500000 (constantI S_ 32 0#32)))
        (addi s (broadcastInDim S500000 ![] bcast_S_S500000 (constantI S_ 32 100000#32))) s))
/-- Edge type 1's gathered source rows, two per edge side by side. -/
def gath1 (x : FVec Ideal S100000x128 .f32) (s : IVec S1000000 32) : FVec Ideal S500000x256 .f32 :=
  shapeCast S500000x256 (Host.gather gather_S100000x128_S1000000x1_S1000000x128_1_0_n_n_0_1_1128 x
    (broadcastInDim S1000000x1 ![0] bcast_S1000000_S1000000x1_0
      (select (cmpi .slt s (broadcastInDim S1000000 ![] bcast_S_S1000000 (constantI S_ 32 0#32)))
        (addi s (broadcastInDim S1000000 ![] bcast_S_S1000000 (constantI S_ 32 100000#32))) s))) shapeCasts_S1000000x128_S500000x256
/-- Edge type 2's gathered source rows, three per edge side by side. -/
def gath2 (x : FVec Ideal S100000x128 .f32) (s : IVec S1500000 32) : FVec Ideal S500000x384 .f32 :=
  shapeCast S500000x384 (Host.gather gather_S100000x128_S1500000x1_S1500000x128_1_0_n_n_0_1_1128 x
    (broadcastInDim S1500000x1 ![0] bcast_S1500000_S1500000x1_0
      (select (cmpi .slt s (broadcastInDim S1500000 ![] bcast_S_S1500000 (constantI S_ 32 0#32)))
        (addi s (broadcastInDim S1500000 ![] bcast_S_S1500000 (constantI S_ 32 100000#32))) s))) shapeCasts_S1500000x128_S500000x384
def tmp0 (x : FVec Ideal S100000x128 .f32) (s : IVec S500000 32) (w : FVec Ideal S128x128 .f32) : FVec Ideal S500000x128 .f32 :=
  Host.dotGeneral dot_S500000x128_S128x128_S500000x128_1_0_0_1_n_n none (gath0 x s) w
def tmp1 (x : FVec Ideal S100000x128 .f32) (s : IVec S1000000 32) (w : FVec Ideal S256x128 .f32) : FVec Ideal S500000x128 .f32 :=
  Host.dotGeneral dot_S500000x256_S256x128_S500000x128_1_0_0_1_n_n none (gath1 x s) w
def tmp2 (x : FVec Ideal S100000x128 .f32) (s : IVec S1500000 32) (w : FVec Ideal S384x128 .f32) : FVec Ideal S500000x128 .f32 :=
  Host.dotGeneral dot_S500000x384_S384x128_S500000x128_1_0_0_1_n_n none (gath2 x s) w
/-- The dense projection plus bias. -/
def proj (x : FVec Ideal S100000x128 .f32) (wc : FVec Ideal S128x128 .f32) (b : FVec Ideal S128 .f32) : FVec Ideal S100000x128 .f32 :=
  addf (Host.dotGeneral dot_S100000x128_S128x128_S100000x128_1_0_0_1_n_n none x
      (transpose S128x128 [1, 0] wc transposes_S128x128_S128x128_1_0))
    (broadcastInDim S100000x128 ![0, 1] bcast_S1x128_S100000x128_0_1 (broadcastInDim S1x128 ![1] bcast_S128_S1x128_1 b))
def zeros : FVec Ideal S100000x128 .f32 :=
  broadcastInDim S100000x128 ![] bcast_S_S100000x128 (constant (F := Ideal) S_ .f32 0x00000000#32)

/-- The result array as one term of the twelve argument arrays. -/
def valueOf (x : FVec Ideal S100000x128 .f32) (s0 d0 : IVec S500000 32) (s1 : IVec S1000000 32) (d1 : IVec S500000 32)
    (s2 : IVec S1500000 32) (d2 : IVec S500000 32) (w0 : FVec Ideal S128x128 .f32) (w1 : FVec Ideal S256x128 .f32)
    (w2 : FVec Ideal S384x128 .f32) (wc : FVec Ideal S128x128 .f32) (b : FVec Ideal S128 .f32) : FVec Ideal S100000x128 .f32 :=
  addf (proj x wc b)
    (stepR (stepR (stepR zeros d0 (tmp0 x s0 w0)) d1 (tmp1 x s1 w1)) d2 (tmp2 x s2 w2))

variable (m : (ℓ : Loc nD τ sig) → Buf (Elt Ideal) ℓ)

/-- The run's composed result term is that term of the launch memory's argument arrays. -/
theorem value_eq (c : Dev nD) : Value.res_main_v101 (F := Ideal) m c
    = valueOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Value.res_main_v101
  rfl

end Cert.ReferenceIdeal.Whole

end
-- ==== Proof.Bridge.lean ====
/-
  The kernel's term and the reference's term of the twelve argument arrays are one function, when every destination
  index is a row of the node table.

  Each launch's whole product is the host's matrix product of the same operands (narrowing the operands first is the
  identity on extended reals); the dense projection likewise, its bias read through a reshape on one side and two
  broadcasts on the other.  The kernel accumulates the three edge types on top of the projection, the reference
  accumulates them on zeros and adds the projection last: by associativity the projection moves out of each accumulation,
  and each edge's weight is the same on both sides because the count at its destination is positive.
-/
import proofs.«161958_j3049426780188_2_alg».proof.Proof.KRead
import proofs.«161958_j3049426780188_2_alg».proof.Proof.RefSide
import proofs.«161958_j3049426780188_2_alg».proof.Proof.LibPlainDot
import proofs.«161958_j3049426780188_2_alg».proof.Proof.Gen.ReferenceIdeal.Read
import Idealize.ShloMosaic.Lib.ValueLayout

set_option maxRecDepth 16384

noncomputable section

namespace Cert.Proof.Bridge

open Idealize.ShloMosaic Idealize.ShloMosaic.ValueIdx Cert.Hgnn

/-- Edge type 0: the launch's whole product is the host's matrix product of the same gathered rows and weights. -/
theorem tmp0_eq (x : FVec Ideal ⟨2, ![100000, 128]⟩ .f32) (s : IVec ⟨1, ![500000]⟩ 32) (w : FVec Ideal ⟨2, ![128, 128]⟩ .f32)
    (i : (⟨2, ![500000, 128]⟩ : Shape).Idx) :
    Cert.KernelIdeal.Edge1.G (Cert.KernelIdeal.Whole.gath0 x s) (Cert.KernelIdeal.Whole.wa0 w) i
      = Cert.ReferenceIdeal.Whole.tmp0 x s w i := by
  obtain ⟨e, q, rfl⟩ : ∃ (e : Fin 500000) (q : Fin 128), i = ix2 e q := ⟨i 0, i 1, eq_ix2 i⟩
  unfold Cert.ReferenceIdeal.Whole.tmp0
  refine Eq.trans ?_ (PlainDot.dotGeneral_apply Cert.ReferenceIdeal.dot_S500000x128_S128x128_S500000x128_1_0_0_1_n_n none rfl rfl
    Cert.ReferenceIdeal.Read.lhs_main_v8_0 Cert.ReferenceIdeal.Read.lhs_main_v8_1 Cert.ReferenceIdeal.Read.rhs_main_v8_0
    Cert.ReferenceIdeal.Read.rhs_main_v8_1 (Cert.ReferenceIdeal.Whole.gath0 x s) w e q).symm
  unfold Cert.KernelIdeal.Edge1.G
  exact Finset.sum_congr rfl fun j _ => rfl

/-- Edge type 1: the launch's whole product is the host's matrix product of the same gathered rows and weights. -/
theorem tmp1_eq (x : FVec Ideal ⟨2, ![100000, 128]⟩ .f32) (s : IVec ⟨1, ![1000000]⟩ 32) (w : FVec Ideal ⟨2, ![256, 128]⟩ .f32)
    (i : (⟨2, ![500000, 128]⟩ : Shape).Idx) :
    Cert.KernelIdeal.Edge2.G (Cert.KernelIdeal.Whole.gath1 x s) (Cert.KernelIdeal.Whole.wa1 w) i
      = Cert.ReferenceIdeal.Whole.tmp1 x s w i := by
  obtain ⟨e, q, rfl⟩ : ∃ (e : Fin 500000) (q : Fin 128), i = ix2 e q := ⟨i 0, i 1, eq_ix2 i⟩
  unfold Cert.ReferenceIdeal.Whole.tmp1
  refine Eq.trans ?_ (PlainDot.dotGeneral_apply Cert.ReferenceIdeal.dot_S500000x256_S256x128_S500000x128_1_0_0_1_n_n none rfl rfl
    Cert.ReferenceIdeal.Read.lhs_main_v40_0 Cert.ReferenceIdeal.Read.lhs_main_v40_1 Cert.ReferenceIdeal.Read.rhs_main_v40_0
    Cert.ReferenceIdeal.Read.rhs_main_v40_1 (Cert.ReferenceIdeal.Whole.gath1 x s) w e q).symm
  unfold Cert.KernelIdeal.Edge2.G
  exact Finset.sum_congr rfl fun j _ => rfl

/-- Edge type 2: the launch's whole product is the host's matrix product of the same gathered rows and weights. -/
theorem tmp2_eq (x : FVec Ideal ⟨2, ![100000, 128]⟩ .f32) (s : IVec ⟨1, ![1500000]⟩ 32) (w : FVec Ideal ⟨2, ![384, 128]⟩ .f32)
    (i : (⟨2, ![500000, 128]⟩ : Shape).Idx) :
    Cert.KernelIdeal.Edge3.G (Cert.KernelIdeal.Whole.gath2 x s) (Cert.KernelIdeal.Whole.wa2 w) i
      = Cert.ReferenceIdeal.Whole.tmp2 x s w i := by
  obtain ⟨e, q, rfl⟩ : ∃ (e : Fin 500000) (q : Fin 128), i = ix2 e q := ⟨i 0, i 1, eq_ix2 i⟩
  unfold Cert.ReferenceIdeal.Whole.tmp2
  refine Eq.trans ?_ (PlainDot.dotGeneral_apply Cert.ReferenceIdeal.dot_S500000x384_S384x128_S500000x128_1_0_0_1_n_n none rfl rfl
    Cert.ReferenceIdeal.Read.lhs_main_v72_0 Cert.ReferenceIdeal.Read.lhs_main_v72_1 Cert.ReferenceIdeal.Read.rhs_main_v72_0
    Cert.ReferenceIdeal.Read.rhs_main_v72_1 (Cert.ReferenceIdeal.Whole.gath2 x s) w e q).symm
  unfold Cert.KernelIdeal.Edge3.G
  exact Finset.sum_congr rfl fun j _ => rfl

/-- The bias row as the reference broadcasts it, at entry (r, q). -/
theorem bias_apply (b : FVec Ideal ⟨1, ![128]⟩ .f32) (r : Fin 100000) (q : Fin 128) :
    broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b) (ix2 r q) = b (ix1 q) := by
  refine (broadcastInDim_apply _ _ _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ _ b (ix2 (0 : Fin 1) q) (ix1 q) (fun a => match a with
    | ⟨0, _⟩ => by show q.val = if (128 : Nat) = 1 then 0 else q.val; rw [if_neg (by decide)])

/-- The launch's dense projection is the reference's, plus the zeros the reference starts its accumulation from. -/
theorem proj_eq (x : FVec Ideal ⟨2, ![100000, 128]⟩ .f32) (wc : FVec Ideal ⟨2, ![128, 128]⟩ .f32) (b : FVec Ideal ⟨1, ![128]⟩ .f32) :
    Cert.KernelIdeal.Proj.G (Cert.KernelIdeal.Whole.xb x) (Cert.KernelIdeal.Whole.wct wc) (Cert.KernelIdeal.Whole.brow b)
      = fun i => Cert.ReferenceIdeal.Whole.proj x wc b i + Cert.ReferenceIdeal.Whole.zeros i := by
  funext i
  obtain ⟨r, q, rfl⟩ : ∃ (r : Fin 100000) (q : Fin 128), i = ix2 r q := ⟨i 0, i 1, eq_ix2 i⟩
  have hz : Cert.ReferenceIdeal.Whole.zeros (ix2 r q) = 0 := by
    unfold Cert.ReferenceIdeal.Whole.zeros
    rw [bcast0_apply, constant_apply]
    exact Ideal.ofBits_zero_f32
  have hr : Cert.KernelIdeal.Whole.brow b (ix2 (0 : Fin 1) q) = b (ix1 q) := by
    unfold Cert.KernelIdeal.Whole.brow
    exact shapeCast_a_1a_apply b _ (0 : Fin 1) q
  have hp : Cert.ReferenceIdeal.Whole.proj x wc b (ix2 r q)
      = (∑ j : Fin 128, x (ix2 r j) * (transpose Cert.ReferenceIdeal.S128x128 [1, 0] wc Cert.ReferenceIdeal.Gen.transposes_S128x128_S128x128_1_0) (ix2 j q) : EReal) + b (ix1 q) := by
    unfold Cert.ReferenceIdeal.Whole.proj
    rw [addf_apply, bias_apply, PlainDot.dotGeneral_apply Cert.ReferenceIdeal.dot_S100000x128_S128x128_S100000x128_1_0_0_1_n_n none rfl rfl
      Cert.ReferenceIdeal.Read.lhs_main_v97_0 Cert.ReferenceIdeal.Read.lhs_main_v97_1 Cert.ReferenceIdeal.Read.rhs_main_v97_0
      Cert.ReferenceIdeal.Read.rhs_main_v97_1 x _ r q]
  rw [hz, add_zero, hp, ← hr]
  rfl

/-- The two programs' terms of the argument arrays are one function when every destination is a row of the table. -/
theorem value_eq (x : FVec Ideal ⟨2, ![100000, 128]⟩ .f32) (s0 d0 : IVec ⟨1, ![500000]⟩ 32) (s1 : IVec ⟨1, ![1000000]⟩ 32)
    (d1 : IVec ⟨1, ![500000]⟩ 32) (s2 : IVec ⟨1, ![1500000]⟩ 32) (d2 : IVec ⟨1, ![500000]⟩ 32)
    (w0 : FVec Ideal ⟨2, ![128, 128]⟩ .f32) (w1 : FVec Ideal ⟨2, ![256, 128]⟩ .f32) (w2 : FVec Ideal ⟨2, ![384, 128]⟩ .f32)
    (wc : FVec Ideal ⟨2, ![128, 128]⟩ .f32) (b : FVec Ideal ⟨1, ![128]⟩ .f32)
    (hd0 : ∀ e : Fin 500000, 0 ≤ (d0 (ix1 e)).toInt ∧ (d0 (ix1 e)).toInt < 100000)
    (hd1 : ∀ e : Fin 500000, 0 ≤ (d1 (ix1 e)).toInt ∧ (d1 (ix1 e)).toInt < 100000)
    (hd2 : ∀ e : Fin 500000, 0 ≤ (d2 (ix1 e)).toInt ∧ (d2 (ix1 e)).toInt < 100000) :
    Cert.KernelIdeal.Whole.valueOf x s0 d0 s1 d1 s2 d2 w0 w1 w2 wc b
      = Cert.ReferenceIdeal.Whole.valueOf x s0 d0 s1 d1 s2 d2 w0 w1 w2 wc b := by
  unfold Cert.KernelIdeal.Whole.valueOf Cert.ReferenceIdeal.Whole.valueOf
  have h0 := step_eq (Cert.ReferenceIdeal.Whole.proj x wc b) _ Cert.ReferenceIdeal.Whole.zeros (proj_eq x wc b) d0 _ _
    (tmp0_eq x s0 w0) hd0
  have h1 := step_eq (Cert.ReferenceIdeal.Whole.proj x wc b) _ _ h0 d1 _ _ (tmp1_eq x s1 w1) hd1
  have h2 := step_eq (Cert.ReferenceIdeal.Whole.proj x wc b) _ _ h1 d2 _ _ (tmp2_eq x s2 w2) hd2
  rw [h2]
  rfl

end Cert.Proof.Bridge

end
-- ==== Proof.PreDecode.lean ====
/-
  The precondition, decoded: every destination index of every edge type is a row of the node table.

  The precondition is one bit: the conjunction of "every float input is finite" with, for each of the three destination
  arrays, "every entry d satisfies 0 ≤ d and d < 100000" (signed comparisons, each reduced by `and` over the array).  A
  conjunction of bits is one exactly when each is, and an `and`-reduction is one exactly when every element is.
-/
import proofs.«161958_j3049426780188_2_alg».proof.Pre_finite_inputs
import Idealize.ShloMosaic.Lib.ReduceAll
import Idealize.ShloMosaic.Lib.ValueIdx
import Idealize.ShloMosaic.PureOps.Ideal

noncomputable section

namespace Cert.Pre_finite_inputs.Decode

open Idealize.ShloMosaic Idealize.ShloMosaic.ValueIdx Cert.Pre_finite_inputs

instance : Subsingleton S_.Idx := ⟨fun a b => funext fun d => d.elim0⟩

theorem and1 : ∀ (a b : BitVec 1), IntOp.andi a b = 1#1 ↔ a = 1#1 ∧ b = 1#1 := by decide
theorem ofBool_eq_one (b : Bool) : BitVec.ofBool b = 1#1 ↔ b = true := by cases b <;> decide

/-- A word that is signed-at-least 0 and signed-below 100000 is, read signed, in [0, 100000). -/
theorem range_of_words (w : BitVec 32) (h0 : IntOp.cmpi .sge w 0#32 = 1#1) (h1 : IntOp.cmpi .slt w 100000#32 = 1#1) :
    0 ≤ w.toInt ∧ w.toInt < 100000 := by
  unfold IntOp.cmpi at h0 h1
  rw [ofBool_eq_one] at h0 h1
  simp only [BitVec.slt, BitVec.sle, decide_eq_true_eq] at h0 h1
  have e0 : (0#32 : BitVec 32).toInt = 0 := by decide
  have e1 : (100000#32 : BitVec 32).toInt = 100000 := by decide
  rw [e0] at h0
  rw [e1] at h1
  exact ⟨h0, h1⟩

variable [Cert.Pre_finite_inputs.Facts]
open Cert.Pre_finite_inputs.Facts

/-- One destination array's conjunct, element by element. -/
theorem range_of_all (d : IVec S500000 32)
    (h : Host.reduce IntOp.andi (fun i => IntOp.andi
        (cmpi .sge d (broadcastInDim S500000 ![] bcast_S_S500000 (constantI S_ 32 0#32)) i)
        (cmpi .slt d (broadcastInDim S500000 ![] bcast_S_S500000 (constantI S_ 32 100000#32)) i))
      (constantI S_ 1 1#1) reducesTo_S500000_S_d0 h_S_ (fun a => a.elim0) = 1#1)
    (e : Fin 500000) : 0 ≤ (d (ix1 e)).toInt ∧ (d (ix1 e)).toInt < 100000 := by
  have q := Host.reduce_andi_all _ _ _ _ _ h (ix1 e)
  have q' := (and1 _ _).mp q
  exact range_of_words (d (ix1 e)) q'.1 q'.2

/-- The precondition gives all three destination arrays their range. -/
theorem dst_ranges (a0 : FVec Ideal S100000x128 .f32) (a1 : IVec S500000 32) (a2 : IVec S500000 32) (a3 : IVec S1000000 32)
    (a4 : IVec S500000 32) (a5 : IVec S1500000 32) (a6 : IVec S500000 32) (a7 : FVec Ideal S128x128 .f32)
    (a8 : FVec Ideal S256x128 .f32) (a9 : FVec Ideal S384x128 .f32) (a10 : FVec Ideal S128x128 .f32) (a11 : FVec Ideal S128 .f32)
    (h : fn (F := Ideal) a0 a1 a2 a3 a4 a5 a6 a7 a8 a9 a10 a11 = fun _ => 1#1) :
    (∀ e : Fin 500000, 0 ≤ (a2 (ix1 e)).toInt ∧ (a2 (ix1 e)).toInt < 100000)
    ∧ (∀ e : Fin 500000, 0 ≤ (a4 (ix1 e)).toInt ∧ (a4 (ix1 e)).toInt < 100000)
    ∧ (∀ e : Fin 500000, 0 ≤ (a6 (ix1 e)).toInt ∧ (a6 (ix1 e)).toInt < 100000) := by
  have e := congrFun h (fun a => a.elim0)
  unfold fn fn_part1 fn_part2 at e
  simp only [andi] at e
  simp only [and1] at e
  obtain ⟨⟨⟨-, r0⟩, r1⟩, r2⟩ := e
  exact ⟨range_of_all a2 r0, range_of_all a4 r1, range_of_all a6 r2⟩

end Cert.Pre_finite_inputs.Decode

end
-- ==== Proof.lean ====
/-
  The certificate of the heterogeneous-graph message-passing layer: its Pallas kernel program against its jnp reference,
  on the extended reals, for destination indices that are rows of the node table.

  Both programs compute, for each node n and lane q,
      Σ_j x(n, j) · WC(q, j) + bC(q)  +  Σ over the three edge types, Σ over that type's edges e arriving at n, of
      (1 / #{edges of the type arriving at n}) · Σ_j gathered(e, j) · WA(j, q).
  The kernel program computes the dense projection and the three per-edge projections in four kernel launches (row
  blocks of 4000 through the matrix unit, operands narrowed to a shorter float format: the identity on extended reals),
  guards the reciprocal by where(count > 0, ·, 0), and accumulates the edge types on top of the projection; the reference
  uses the host's matrix products, divides unguarded, accumulates on zeros and adds the projection last.  With every
  destination index a row of the table, each edge was counted at its own destination, so the guard never binds; the rest
  is associativity and commutativity of sums of extended reals, which hold at the infinities too, so finiteness of the
  float inputs is not used.
  The three frames are the generated frame proofs (the reference's is its generated run with the result dropped); the
  idealization rewrote nothing, so there is nothing to preserve.
-/
import proofs.«161958_j3049426780188_2_alg».proof.Defs
import proofs.«161958_j3049426780188_2_alg».proof.Proof.Gen.Kernel
import proofs.«161958_j3049426780188_2_alg».proof.Proof.Gen.Kernel.Skeleton
import proofs.«161958_j3049426780188_2_alg».proof.Proof.Gen.Kernel.Launch
import proofs.«161958_j3049426780188_2_alg».proof.Proof.Gen.Kernel.Points
import proofs.«161958_j3049426780188_2_alg».proof.Proof.Gen.Kernel.Frame
import proofs.«161958_j3049426780188_2_alg».proof.Proof.Gen.KernelIdeal
import proofs.«161958_j3049426780188_2_alg».proof.Proof.Gen.KernelIdeal.Skeleton
import proofs.«161958_j3049426780188_2_alg».proof.Proof.Gen.KernelIdeal.Launch
import proofs.«161958_j3049426780188_2_alg».proof.Proof.Gen.KernelIdeal.Points
import proofs.«161958_j3049426780188_2_alg».proof.Proof.Gen.KernelIdeal.Frame
import proofs.«161958_j3049426780188_2_alg».proof.Proof.Gen.ReferenceIdeal
import proofs.«161958_j3049426780188_2_alg».proof.Proof.Gen.ReferenceIdeal.Run
import proofs.«161958_j3049426780188_2_alg».proof.Proof.Gen.ReferenceIdeal.Read
import proofs.«161958_j3049426780188_2_alg».proof.Proof.Gen.Pre_finite_inputs
import proofs.«161958_j3049426780188_2_alg».proof.Proof.KRead
import proofs.«161958_j3049426780188_2_alg».proof.Proof.RefSide
import proofs.«161958_j3049426780188_2_alg».proof.Proof.Bridge
import proofs.«161958_j3049426780188_2_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same result array: the kernel program's returned buffer holds its term of the argument
    arrays (the run read backwards), the reference's holds its own (the generated run), and the two terms are one function
    when the destination indices are rows of the table, which the precondition says. -/
theorem algebraic : Cert.algebraic_KernelIdeal_ReferenceIdeal := by
  intro m ρ m' ρ' hpre hagree
  refine ⟨fun c => Cert.KernelIdeal.Whole.valueOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨?_, ?_, ?_, ?_, ?_, ?_, ?_, ?_, ?_, ?_, ?_, ?_, ?_⟩) (Cert.KernelIdeal.Whole.run m ρ)
    · exact (Cert.KernelIdeal.Whole.read_of_run m ρ h c Cert.KernelIdeal.main_v114 (by decide)).trans (Cert.KernelIdeal.Whole.value_eq m ρ c)
    · exact (Cert.KernelIdeal.Whole.read_of_run m ρ h c Cert.KernelIdeal.main_arg0 (by decide)).trans (Cert.KernelIdeal.Gen.W15_main_arg0 m ρ c)
    · exact (Cert.KernelIdeal.Whole.read_of_run m ρ h c Cert.KernelIdeal.main_arg1 (by decide)).trans (Cert.KernelIdeal.Gen.W15_main_arg1 m ρ c)
    · exact (Cert.KernelIdeal.Whole.read_of_run m ρ h c Cert.KernelIdeal.main_arg2 (by decide)).trans (Cert.KernelIdeal.Gen.W15_main_arg2 m ρ c)
    · exact (Cert.KernelIdeal.Whole.read_of_run m ρ h c Cert.KernelIdeal.main_arg3 (by decide)).trans (Cert.KernelIdeal.Gen.W15_main_arg3 m ρ c)
    · exact (Cert.KernelIdeal.Whole.read_of_run m ρ h c Cert.KernelIdeal.main_arg4 (by decide)).trans (Cert.KernelIdeal.Gen.W15_main_arg4 m ρ c)
    · exact (Cert.KernelIdeal.Whole.read_of_run m ρ h c Cert.KernelIdeal.main_arg5 (by decide)).trans (Cert.KernelIdeal.Gen.W15_main_arg5 m ρ c)
    · exact (Cert.KernelIdeal.Whole.read_of_run m ρ h c Cert.KernelIdeal.main_arg6 (by decide)).trans (Cert.KernelIdeal.Gen.W15_main_arg6 m ρ c)
    · exact (Cert.KernelIdeal.Whole.read_of_run m ρ h c Cert.KernelIdeal.main_arg7 (by decide)).trans (Cert.KernelIdeal.Gen.W15_main_arg7 m ρ c)
    · exact (Cert.KernelIdeal.Whole.read_of_run m ρ h c Cert.KernelIdeal.main_arg8 (by decide)).trans (Cert.KernelIdeal.Gen.W15_main_arg8 m ρ c)
    · exact (Cert.KernelIdeal.Whole.read_of_run m ρ h c Cert.KernelIdeal.main_arg9 (by decide)).trans (Cert.KernelIdeal.Gen.W15_main_arg9 m ρ c)
    · exact (Cert.KernelIdeal.Whole.read_of_run m ρ h c Cert.KernelIdeal.main_arg10 (by decide)).trans (Cert.KernelIdeal.Gen.W15_main_arg10 m ρ c)
    · exact (Cert.KernelIdeal.Whole.read_of_run m ρ h c Cert.KernelIdeal.main_arg11 (by decide)).trans (Cert.KernelIdeal.Gen.W15_main_arg11 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Whole.value_eq]
    obtain ⟨e0, e1, e2, e3, e4, e5, e6, e7, e8, e9, e10, e11⟩ := hagree c
    rw [e0, e1, e2, e3, e4, e5, e6, e7, e8, e9, e10, e11]
    obtain ⟨hd0, hd1, hd2⟩ := Cert.Pre_finite_inputs.Decode.dst_ranges _ _ _ _ _ _ _ _ _ _ _ _ (hpre c)
    exact (Cert.Proof.Bridge.value_eq _ _ _ _ _ _ _ _ _ _ _ _ hd0 hd1 hd2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
